-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x64 : Shape := ⟨3, ![2, 1024, 64]⟩
abbrev S1x1x1x128 : Shape := ⟨4, ![1, 1, 1, 128]⟩
abbrev S64x128 : Shape := ⟨2, ![64, 128]⟩
abbrev S_ : Shape := ⟨0, ![]⟩

class Facts : Prop where
  bcast_S_S2x1024x64 : S_.BroadcastsInDim S2x1024x64 (![] : Fin 0 → Fin S2x1024x64.rank)
  reducesTo_S2x1024x64_S_d0_1_2 : S2x1024x64.ReducesTo [0, 1, 2] S_
  h_S_ : 0 < S_.numel
  bcast_S_S1x1x1x128 : S_.BroadcastsInDim S1x1x1x128 (![] : Fin 0 → Fin S1x1x1x128.rank)
  reducesTo_S1x1x1x128_S_d0_1_2_3 : S1x1x1x128.ReducesTo [0, 1, 2, 3] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S2x1024x64 .f32) (main_arg1 : FVec F S1x1x1x128 .f32) (main_arg2 : FVec F S1x1x1x128 .f32) (main_arg3 : FVec F S64x128 .f32) : IVec S_ 1 :=
  let main_v0 : FVec F S2x1024x64 .f32 := Host.absf main_arg0
  let main_cst : FVec F S_ .f32 := constant S_ .f32 0x7F800000#32
  let main_v1 : FVec F S2x1024x64 .f32 := broadcastInDim S2x1024x64 ![] bcast_S_S2x1024x64 main_cst
  let main_v2 : IVec S2x1024x64 1 := cmpf .olt main_v0 main_v1
  let main_c : IVec S_ 1 := constantI S_ 1 1#1
  let main_v3 : IVec S_ 1 := (fun x v => Host.reduce IntOp.andi x v reducesTo_S2x1024x64_S_d0_1_2 h_S_) main_v2 main_c
  let main_v4 : FVec F S1x1x1x128 .f32 := Host.absf main_arg1
  let main_cst_0 : FVec F S_ .f32 := constant S_ .f32 0x7F800000#32
  let main_v5 : FVec F S1x1x1x128 .f32 := broadcastInDim S1x1x1x128 ![] bcast_S_S1x1x1x128 main_cst_0
  let main_v6 : IVec S1x1x1x128 1 := cmpf .olt main_v4 main_v5
  let main_c_1 : IVec S_ 1 := constantI S_ 1 1#1
  let main_v7 : IVec S_ 1 := (fun x v => Host.reduce IntOp.andi x v reducesTo_S1x1x1x128_S_d0_1_2_3 h_S_) main_v6 main_c_1
  let main_v8 : IVec S_ 1 := andi main_v3 main_v7
  let main_v9 : FVec F S1x1x1x128 .f32 := Host.absf main_arg2
  let main_cst_2 : FVec F S_ .f32 := constant S_ .f32 0x7F800000#32
  let main_v10 : FVec F S1x1x1x128 .f32 := broadcastInDim S1x1x1x128 ![] bcast_S_S1x1x1x128 main_cst_2
  let main_v11 : IVec S1x1x1x128 1 := cmpf .olt main_v9 main_v10
  let main_c_3 : IVec S_ 1 := constantI S_ 1 1#1
  let main_v12 : IVec S_ 1 := (fun x v => Host.reduce IntOp.andi x v reducesTo_S1x1x1x128_S_d0_1_2_3 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S2x1024x64 : Shape := ⟨3, ![2, 1024, 64]⟩
abbrev S1x1x1x128 : Shape := ⟨4, ![1, 1, 1, 128]⟩
abbrev S64x128 : Shape := ⟨2, ![64, 128]⟩
abbrev S128 : Shape := ⟨1, ![128]⟩
abbrev S64 : Shape := ⟨1, ![64]⟩
abbrev S1x64 : Shape := ⟨2, ![1, 64]⟩
abbrev S128x64 : Shape := ⟨2, ![128, 64]⟩
abbrev S64x64 : Shape := ⟨2, ![64, 64]⟩
abbrev S1x1024x64 : Shape := ⟨3, ![1, 1024, 64]⟩
abbrev S1024x64 : Shape := ⟨2, ![1024, 64]⟩

abbrev nBuf : Space → Nat
  | .hbm => 20
  | .vmem => 10
  | .smem => 0
  | _ => 0

abbrev bufTy : (tb : Table) → Fin (tcTables nBuf tb) → BufTy
  | .hbm, ⟨0, _⟩ => ⟨S2x1024x64, .f32⟩
  | .hbm, ⟨1, _⟩ => ⟨S1x1x1x128, .f32⟩
  | .hbm, ⟨2, _⟩ => ⟨S1x1x1x128, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S128x64, .f32⟩
  | .hbm, ⟨15, _⟩ => ⟨S64x64, .f32⟩
  | .hbm, ⟨16, _⟩ => ⟨S64x64, .bf16⟩
  | .hbm, ⟨17, _⟩ => ⟨S64x64, .f32⟩
  | .hbm, ⟨18, _⟩ => ⟨S64x64, .bf16⟩
  | .hbm, ⟨19, _⟩ => ⟨S2x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x64, .bf16⟩
  | .local _ .vmem, ⟨7, _⟩ => ⟨S64x64, .bf16⟩
  | .local _ .vmem, ⟨8, _⟩ => ⟨S1x1024x64, .f32⟩
  | .local _ .vmem, ⟨9, _⟩ => ⟨S1x1024x64, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x1x1x128_S128 : S1x1x1x128.ShapeCasts S128
  slices_S128_S64_0 : S128.Slices ![0] S64
  shapeCasts_S64_S1x64 : S64.ShapeCasts S1x64
  slices_S128_S64_64 : S128.Slices ![64] S64
  transposes_S64x128_S128x64_1_0 : S64x128.Transposes [1, 0] S128x64
  slices_S128x64_S64x64_0_0 : S128x64.Slices ![0, 0] S64x64
  bitsLt_bf16_f32 : FTy.bits .bf16 < FTy.bits .f32
  slices_S128x64_S64x64_64_0 : S128x64.Slices ![64, 0] S64x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S1024x64_S64 : S1024x64.Reduces [0] S64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1024x64_S1x1024x64 : S1024x64.ShapeCasts S1x1024x64
  dot_S1024x64_S64x64_S1024x64_1_0_0_1_n_n_wf : DotDims.WF S1024x64 S64x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S2x1024x64.size a
  hwx0_0 : ∀ i : grid0.Coords, EltTy.bits .f32 = 32 ∨ (Rect.block (s := S2x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x64.size a ≤ S2x1024x64.size a
  hwx0_7 : ∀ i : grid0.Coords, EltTy.bits .f32 = 32 ∨ (Rect.block (s := S2x1024x64) S1x1024x64.size (cc0_transform_7 i) (hinb0_7 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x1024x64 : Shape := ⟨3, ![2, 1024, 64]⟩
abbrev S1x1x1x128 : Shape := ⟨4, ![1, 1, 1, 128]⟩
abbrev S64x128 : Shape := ⟨2, ![64, 128]⟩
abbrev S2x1x1024x64 : Shape := ⟨4, ![2, 1, 1024, 64]⟩
abbrev S2x1024x1x64 : Shape := ⟨4, ![2, 1024, 1, 64]⟩
abbrev S2x1024x1024x64 : Shape := ⟨4, ![2, 1024, 1024, 64]⟩
abbrev S_ : Shape := ⟨0, ![]⟩
abbrev S2x1024x1024x128 : Shape := ⟨4, ![2, 1024, 1024, 128]⟩
abbrev S2x1024x128 : Shape := ⟨3, ![2, 1024, 128]⟩
abbrev S2x1024x1x128 : Shape := ⟨4, ![2, 1024, 1, 128]⟩

abbrev nBuf : Space → Nat
  | .hbm => 67
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S1x1x1x128, .f32⟩
  | .hbm, ⟨2, _⟩ => ⟨S1x1x1x128, .f32⟩
  | .hbm, ⟨3, _⟩ => ⟨S64x128, .f32⟩
  | .hbm, ⟨4, _⟩ => ⟨S2x1x1024x64, .f32⟩
  | .hbm, ⟨5, _⟩ => ⟨S2x1024x1x64, .f32⟩
  | .hbm, ⟨6, _⟩ => ⟨S2x1024x1024x64, .f32⟩
  | .hbm, ⟨7, _⟩ => ⟨S2x1024x1024x64, .f32⟩
  | .hbm, ⟨8, _⟩ => ⟨S2x1024x1024x64, .f32⟩
  | .hbm, ⟨9, _⟩ => ⟨S_, .i32⟩
  | .hbm, ⟨10, _⟩ => ⟨S_, .f32⟩
  | .hbm, ⟨11, _⟩ => ⟨S2x1024x64, .f32⟩
  | .hbm, ⟨12, _⟩ => ⟨S2x1024x1x64, .f32⟩
  | .hbm, ⟨13, _⟩ => ⟨S_, .f32⟩
  | .hbm, ⟨14, _⟩ => ⟨S2x1024x1x64, .f32⟩
  | .hbm, ⟨15, _⟩ => ⟨S2x1024x1x64, .f32⟩
  | .hbm, ⟨16, _⟩ => ⟨S2x1024x1024x64, .f32⟩
  | .hbm, ⟨17, _⟩ => ⟨S2x1024x1024x64, .f32⟩
  | .hbm, ⟨18, _⟩ => ⟨S2x1024x1024x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x1024x64, .f32⟩
  | .hbm, ⟨24, _⟩ => ⟨S2x1024x1x64, .f32⟩
  | .hbm, ⟨25, _⟩ => ⟨S2x1024x1x64, .f32⟩
  | .hbm, ⟨26, _⟩ => ⟨S2x1024x1x64, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2x1024x1x64, .f32⟩
  | .hbm, ⟨32, _⟩ => ⟨S2x1024x1x64, .f32⟩
  | .hbm, ⟨33, _⟩ => ⟨S_, .f32⟩
  | .hbm, ⟨34, _⟩ => ⟨S2x1024x1x64, .f32⟩
  | .hbm, ⟨35, _⟩ => ⟨S2x1024x1x64, .f32⟩
  | .hbm, ⟨36, _⟩ => ⟨S2x1024x1x64, .f32⟩
  | .hbm, ⟨37, _⟩ => ⟨S2x1024x1024x64, .f32⟩
  | .hbm, ⟨38, _⟩ => ⟨S2x1024x1024x64, .f32⟩
  | .hbm, ⟨39, _⟩ => ⟨S2x1024x1x64, .f32⟩
  | .hbm, ⟨40, _⟩ => ⟨S2x1024x1024x64, .f32⟩
  | .hbm, ⟨41, _⟩ => ⟨S2x1024x1024x128, .f32⟩
  | .hbm, ⟨42, _⟩ => ⟨S2x1024x1024x128, .f32⟩
  | .hbm, ⟨43, _⟩ => ⟨S2x1024x1024x128, .f32⟩
  | .hbm, ⟨44, _⟩ => ⟨S2x1024x1024x128, .f32⟩
  | .hbm, ⟨45, _⟩ => ⟨S2x1024x1024x128, .f32⟩
  | .hbm, ⟨46, _⟩ => ⟨S_, .f32⟩
  | .hbm, ⟨47, _⟩ => ⟨S2x1024x128, .f32⟩
  | .hbm, ⟨48, _⟩ => ⟨S_, .f32⟩
  | .hbm, ⟨49, _⟩ => ⟨S2x1024x128, .f32⟩
  | .hbm, ⟨50, _⟩ => ⟨S2x1024x128, .f32⟩
  | .hbm, ⟨51, _⟩ => ⟨S2x1024x1x128, .f32⟩
  | .hbm, ⟨52, _⟩ => ⟨S2x1024x1024x128, .f32⟩
  | .hbm, ⟨53, _⟩ => ⟨S2x1024x1024x128, .f32⟩
  | .hbm, ⟨54, _⟩ => ⟨S2x1024x1024x128, .f32⟩
  | .hbm, ⟨55, _⟩ => ⟨S_, .f32⟩
  | .hbm, ⟨56, _⟩ => ⟨S2x1024x128, .f32⟩
  | .hbm, ⟨57, _⟩ => ⟨S2x1024x1x128, .f32⟩
  | .hbm, ⟨58, _⟩ => ⟨S2x1024x1024x128, .f32⟩
  | .hbm, ⟨59, _⟩ => ⟨S2x1024x1024x128, .f32⟩
  | .hbm, ⟨60, _⟩ => ⟨S2x1024x1024x128, .f32⟩
  | .hbm, ⟨61, _⟩ => ⟨S_, .f32⟩
  | .hbm, ⟨62, _⟩ => ⟨S2x1024x128, .f32⟩
  | .hbm, ⟨63, _⟩ => ⟨S2x1024x64, .f32⟩
  | .hbm, ⟨64, _⟩ => ⟨S_, .f32⟩
  | .hbm, ⟨65, _⟩ => ⟨S2x1024x64, .f32⟩
  | .hbm, ⟨66, _⟩ => ⟨S2x1024x64, .f32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_0 : Ref sig .tc := ⟨.hbm, 46, rfl⟩
abbrev main_v18 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_call1_cst : Ref sig .tc := ⟨.hbm, 64, rfl⟩
abbrev main_call1_v0 : Ref sig .tc := ⟨.hbm, 65, rfl⟩
abbrev main_v32 : Ref sig .tc := ⟨.hbm, 66, rfl⟩

abbrev nD : Nat := 1
abbrev τ : Topo := Topo.v7x

variable {F : FTy → Type} [FloatOps F]

class Facts₀ : Prop where
  bcast_S2x1024x64_S2x1x1024x64_0_2_3 : S2x1024x64.BroadcastsInDim S2x1x1024x64 (![0, 2, 3] : Fin 3 → Fin S2x1x1024x64.rank)
  bcast_S2x1024x64_S2x1024x1x64_0_1_3 : S2x1024x64.BroadcastsInDim S2x1024x1x64 (![0, 1, 3] : Fin 3 → Fin S2x1024x1x64.rank)
  bcast_S2x1x1024x64_S2x1024x1024x64_0_1_2_3 : S2x1x1024x64.BroadcastsInDim S2x1024x1024x64 (![0, 1, 2, 3] : Fin 4 → Fin S2x1024x1024x64.rank)
  bcast_S2x1024x1x64_S2x1024x1024x64_0_1_2_3 : S2x1024x1x64.BroadcastsInDim S2x1024x1024x64 (![0, 1, 2, 3] : Fin 4 → Fin S2x1024x1024x64.rank)
  reducesTo_S2x1024x1024x64_S2x1024x64_d2 : S2x1024x1024x64.ReducesTo [2] S2x1024x64
  h_S_ : 0 < S_.numel
  bcast_S_S2x1024x1x64 : S_.BroadcastsInDim S2x1024x1x64 (![] : Fin 0 → Fin S2x1024x1x64.rank)
  concatenates_S2x1024x1024x64_S2x1024x1024x64_S2x1024x1024x128_d3 : Shape.Concatenates [S2x1024x1024x64, S2x1024x1024x64] S2x1024x1024x128 3
  bcast_S1x1x1x128_S2x1024x1024x128_0_1_2_3 : S1x1x1x128.BroadcastsInDim S2x1024x1024x128 (![0, 1, 2, 3] : Fin 4 → Fin S2x1024x1024x128.rank)
  reducesTo_S2x1024x1024x128_S2x1024x128_d2 : S2x1024x1024x128.ReducesTo [2] S2x1024x128
  bcast_S_S2x1024x128 : S_.BroadcastsInDim S2x1024x128 (![] : Fin 0 → Fin S2x1024x128.rank)
  bcast_S2x1024x128_S2x1024x1x128_0_1_3 : S2x1024x128.BroadcastsInDim S2x1024x1x128 (![0, 1, 3] : Fin 3 → Fin S2x1024x1x128.rank)
  bcast_S2x1024x1x128_S2x1024x1024x128_0_1_2_3 : S2x1024x1x128.BroadcastsInDim S2x1024x1024x128 (![0, 1, 2, 3] : Fin 4 → Fin S2x1024x1024x128.rank)
  bcast_S_S2x1024x64 : S_.BroadcastsInDim S2x1024x64 (![] : Fin 0 → Fin S2x1024x64.rank)
  dot_S2x1024x128_S64x128_S2x1024x64_2_1_01_0_n_n_wf : DotDims.WF S2x1024x128 S64x128 S2x1024x64 [2] [1] [0, 1] [0] [] []

variable [Facts₀]

def dot_S2x1024x128_S64x128_S2x1024x64_2_1_01_0_n_n : DotDims S2x1024x128 S64x128 S2x1024x64 where
  lhsContracting := [2]
  rhsContracting := [1]
  lhsNonContracting := [0, 1]
  rhsNonContracting := [0]
  lhsBatch := []
  rhsBatch := []
  wf := dot_S2x1024x128_S64x128_S2x1024x64_2_1_01_0_n_n_wf

class Facts : Prop extends Facts₀ where

variable [Facts]
-- ==== Proof.Spec.lean ====
/-
  The mathematics of this certificate, free of any program.

  Per batch b and channel c the data is one column f = x[b, ·, c] of 1024 numbers, a gain γ and a shift β.
  `mean`, `var` (biased) and `rstd = 1/√(var + ε)` are the column's statistics; `wsum L` is the softmax-weighted
  sum Σ_j softmax(L)_j · L_j of a column of logits, its maximum taken as the lattice supremum.

  The kernel's function `GK` works on the column itself: logits a_j = f_j·(γ·rstd f), the weighted sum T = wsum a,
  first-half feature (T + β) − (γ·rstd f)·f_i, second-half feature γ'·f_i + β', then two 64-term products against
  the two halves of W's rows, added, and rectified.

  The reference's function `GR` works on the differences d_j = f_j − f_i: logits ((d_j)·rstd d)·γ + β for the first
  half, the constant column f_i·γ' + β' for the second, the weighted sum of each, one 128-term product, rectified.

  That GK = GR on real data is the bridge (a shift of a column changes neither its variance nor its softmax
  weights, the weights add to one, and the weighted sum of a constant column is the constant).
-/
import Idealize.ShloMosaic.PureOps.Ideal

noncomputable section

namespace Cert.Fusion

open Idealize.ShloMosaic

/-- The column length 1024 and the variance's ε, as the float words both programs print. -/
def cN : EReal := Ideal.ofBits .f32 0x44800000#32
def cEps : EReal := Ideal.ofBits .f32 0x3727C5AC#32

/-- A column: the 1024 entries along the neighbour axis. -/
abbrev Col := Fin 1024 → EReal

/-- Σ_j f_j / 1024. -/
def mean (f : Col) : EReal := Ideal.div (∑ j, f j) cN
/-- The biased variance: the mean of the squared deviations from the mean. -/
def var (f : Col) : EReal := mean (fun j => (f j - mean f) * (f j - mean f))
/-- 1/√(var + ε). -/
def rstd (f : Col) : EReal := Ideal.rsqrt (var f + cEps)
/-- The column's largest entry. -/
def top (L : Col) : EReal := Finset.univ.sup L
/-- Σ_j softmax(L)_j · L_j, the softmax written out: e^{L_j − top} over the sum of those, times L_j. -/
def wsum (L : Col) : EReal :=
  ∑ j, Ideal.div (Ideal.exp (L j - top L)) (∑ j', Ideal.exp (L j' - top L)) * L j

/-- Channel c of the first half of the 128 gains / shifts / weight columns, and channel c of the second half. -/
def lo (c : Fin 64) : Fin 128 := ⟨c.val, by omega⟩
def hi (c : Fin 64) : Fin 128 := ⟨64 + c.val, by omega⟩

/-! ## The kernel's arrangement -/

/-- γ · rstd f. -/
def gain (γ : EReal) (f : Col) : EReal := γ * rstd f
/-- The first-half feature of row i: (wsum of the scaled column + β) − gain · f_i. -/
def tilde (γ β : EReal) (f : Col) (i : Fin 1024) : EReal :=
  (wsum (fun j => f j * gain γ f) + β) - gain γ f * f i
/-- The second-half feature: γ·x + β. -/
def center (γ β x : EReal) : EReal := γ * x + β

def GK (X : Fin 2 → Fin 1024 → Fin 64 → EReal) (Γ B : Fin 128 → EReal) (W : Fin 64 → Fin 128 → EReal)
    (b : Fin 2) (i : Fin 1024) (o : Fin 64) : EReal :=
  max ((∑ c : Fin 64, tilde (Γ (lo c)) (B (lo c)) (fun j => X b j c) i * W o (lo c))
     + (∑ c : Fin 64, center (Γ (hi c)) (B (hi c)) (X b i c) * W o (hi c))) 0

/-! ## The reference's arrangement -/

/-- First-half logits of row i: ((f_j − f_i) · rstd of that difference column) · γ + β. -/
def logitT (γ β : EReal) (f : Col) (i : Fin 1024) : Col :=
  fun j => ((f j - f i) * rstd (fun j' => f j' - f i)) * γ + β
/-- Second-half logits: the constant column x·γ + β. -/
def logitC (γ β x : EReal) : Col := fun _ => x * γ + β

/-- Feature k of row i of batch b: the weighted sum of its logits. -/
def fc (X : Fin 2 → Fin 1024 → Fin 64 → EReal) (Γ B : Fin 128 → EReal) (b : Fin 2) (i : Fin 1024) (k : Fin 128) : EReal :=
  if h : k.val < 64 then wsum (logitT (Γ k) (B k) (fun j => X b j ⟨k.val, h⟩) i)
  else wsum (logitC (Γ k) (B k) (X b i ⟨k.val - 64, by omega⟩))

def GR (X : Fin 2 → Fin 1024 → Fin 64 → EReal) (Γ B : Fin 128 → EReal) (W : Fin 64 → Fin 128 → EReal)
    (b : Fin 2) (i : Fin 1024) (o : Fin 64) : EReal :=
  max (∑ k : Fin 128, fc X Γ B b i k * W o k) 0

end Cert.Fusion

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.KerPay.lean ====
/-
  The kernel body's arithmetic read at an index.

  At a grid point the body holds one batch's block x0 of shape [1,1024,64], four rows [1,64] (two gains, two shifts)
  and two [64,64] weight blocks. Column c of the block is the column f = x0(0,·,c) of the specification; the lane
  reductions down the 1024 rows are the column's sum and supremum, the [64]→[1,64] casts and [1,64]→[1024,64]
  broadcasts put a per-column number beside every row, and the two products into zero accumulators are plain
  64-term sums.
-/
import proofs.«142952_j53334903882146_2_alg».proof.Proof.Gen.KernelIdeal.Skeleton
import proofs.«142952_j53334903882146_2_alg».proof.Proof.Spec
import Idealize.ShloMosaic.Lib.ValueIdx
import Idealize.ShloMosaic.Lib.ValueLayout
import Idealize.ShloMosaic.PureOps.Ideal.Laws
import proofs.«142952_j53334903882146_2_alg».proof.Proof.LibPlainDot

noncomputable section

namespace Cert.KernelIdeal.Pay

open Cert.KernelIdeal Cert.KernelIdeal.Gen Idealize.ShloMosaic Idealize.ShloMosaic.ValueIdx Cert.Fusion

/-- The index a reduction down the rows inserts: row k of column c. -/
theorem lift_col (c : Fin 64) (k : Fin 1024) : reduces_S1024x64_S64.lift (ix1 c) k = ix2 k c := by
  funext a
  match a with
  | ⟨0, _⟩ => rfl
  | ⟨1, _⟩ => rfl

/-- A sum down the 1024 rows from the zero word, at column c. -/
theorem colsum (v : FVec Ideal S1024x64 .f32) (c : Fin 64) :
    multiReduction .add [0] S64 v 0x00000000#32 reduces_S1024x64_S64 (.inl rfl) rfl (ix1 c) = ∑ j : Fin 1024, v (ix2 j c) := by
  refine (Ideal.multiReduction_add_single v 0x00000000#32 reduces_S1024x64_S64 (.inl rfl) rfl (ix1 c)).trans ?_
  exact Finset.sum_congr rfl fun k _ => congrArg v (lift_col c k)

/-- The −∞ word is the bottom of the extended reals. -/
theorem negInf : Ideal.ofBits .f32 0xFF800000#32 = (⊥ : EReal) := by
  simp [Ideal.ofBits, Ideal.ieee]

/-- A maximum down the 1024 rows from −∞, at column c: the column's supremum. -/
theorem colmax (v : FVec Ideal S1024x64 .f32) (c : Fin 64) :
    multiReduction .maximumf [0] S64 v 0xFF800000#32 reduces_S1024x64_S64 (.inl rfl) rfl (ix1 c)
      = Finset.univ.sup fun j : Fin 1024 => v (ix2 j c) := by
  refine (Ideal.multiReduction_maximumf_single v 0xFF800000#32 reduces_S1024x64_S64 (.inl rfl) rfl (ix1 c)).trans ?_
  show (Finset.univ : Finset (Fin 1024)).fold max (Ideal.ofBits .f32 0xFF800000#32) (v ∘ reduces_S1024x64_S64.lift (ix1 c)) = _
  rw [negInf]
  have e : (v ∘ reduces_S1024x64_S64.lift (ix1 c)) = fun j : Fin 1024 => v (ix2 j c) :=
    funext fun k => congrArg v (lift_col c k)
  rw [e]
  rfl

/-- The block with its unit axis dropped. -/
theorem pay2_apply (x0 : Vec Ideal S1x1024x64 .f32) (j : Fin 1024) (c : Fin 64) :
    k0_pay2 x0 (ix2 j c) = x0 (ix3 (0 : Fin 1) j c) := by
  unfold k0_pay2
  exact shapeCast_1ab_ab_apply x0 shapeCasts_S1x1024x64_S1024x64 j c

/-- A per-column number [64] set as the row [1,64]. -/
theorem rowOf (u : FVec Ideal S64 .f32) (c : Fin 64) :
    shapeCast S1x64 u shapeCasts_S64_S1x64 (ix2 (0 : Fin 1) c) = u (ix1 c) :=
  shapeCast_a_1a_apply u shapeCasts_S64_S1x64 0 c

/-- A row [1,64] set beside each of the 1024 rows. -/
theorem spreadRow (r : FVec Ideal S1x64 .f32) (j : Fin 1024) (c : Fin 64) :
    broadcastTo S1024x64 r broadcasts_S1x64_S1024x64 (ix2 j c) = r (ix2 (0 : Fin 1) c) :=
  broadcastTo_1b_ab_apply r broadcasts_S1x64_S1024x64 j c

/-- The kernel's row of column means: the lane sum, as a row, over the splat 1024. -/
def meanRow (v : FVec Ideal S1024x64 .f32) : FVec Ideal S1x64 .f32 :=
  divf (shapeCast S1x64 (multiReduction .add [0] S64 v 0x00000000#32 reduces_S1024x64_S64 (.inl rfl) rfl) shapeCasts_S64_S1x64)
    (broadcast S1x64 (Scalar.ofBits .f32 0x44800000#32))

theorem meanRow_apply (v : FVec Ideal S1024x64 .f32) (c : Fin 64) :
    meanRow v (ix2 (0 : Fin 1) c) = mean (fun j => v (ix2 j c)) := by
  show Ideal.div (shapeCast S1x64 (multiReduction .add [0] S64 v 0x00000000#32 reduces_S1024x64_S64 (.inl rfl) rfl) shapeCasts_S64_S1x64 (ix2 (0 : Fin 1) c))
      (Ideal.ofBits .f32 0x44800000#32) = _
  rw [rowOf, colsum]
  rfl

/-- The block minus its row of column means. -/
def dev (x0 : Vec Ideal S1x1024x64 .f32) : FVec Ideal S1024x64 .f32 :=
  subf (k0_pay2 x0) (broadcastTo S1024x64 (meanRow (k0_pay2 x0)) broadcasts_S1x64_S1024x64)

theorem dev_apply (x0 : Vec Ideal S1x1024x64 .f32) (j : Fin 1024) (c : Fin 64) :
    dev x0 (ix2 j c) = x0 (ix3 (0 : Fin 1) j c) - mean (fun j' => x0 (ix3 (0 : Fin 1) j' c)) := by
  show k0_pay2 x0 (ix2 j c) - broadcastTo S1024x64 (meanRow (k0_pay2 x0)) broadcasts_S1x64_S1024x64 (ix2 j c) = _
  rw [pay2_apply, spreadRow, meanRow_apply]
  simp only [pay2_apply]

/-- The gain row γ·rstd: the first gain row times 1/√(column variance + ε). -/
theorem pay5_apply (x0 : Vec Ideal S1x1024x64 .f32) (g1 : Vec Ideal S1x64 .f32) (c : Fin 64) :
    k0_pay5 x0 g1 (ix2 (0 : Fin 1) c) = gain (g1 (ix2 (0 : Fin 1) c)) (fun j => x0 (ix3 (0 : Fin 1) j c)) := by
  show shapeCast S1x64 g1 shapeCasts_S1x64_S1x64 (ix2 (0 : Fin 1) c)
      * Ideal.rsqrt (meanRow (mulf (dev x0) (dev x0)) (ix2 (0 : Fin 1) c) + Ideal.ofBits .f32 0x3727C5AC#32) = _
  rw [shapeCast_self, meanRow_apply]
  show _ * Ideal.rsqrt (mean (fun j => dev x0 (ix2 j c) * dev x0 (ix2 j c)) + _) = _
  simp only [dev_apply]
  rfl

/-- The scaled block a = x·gain, per column. -/
def scaled (x0 : Vec Ideal S1x1024x64 .f32) (g1 : Vec Ideal S1x64 .f32) : FVec Ideal S1024x64 .f32 :=
  mulf (k0_pay2 x0) (broadcastTo S1024x64 (k0_pay5 x0 g1) broadcasts_S1x64_S1024x64)

theorem scaled_apply (x0 : Vec Ideal S1x1024x64 .f32) (g1 : Vec Ideal S1x64 .f32) (j : Fin 1024) (c : Fin 64) :
    scaled x0 g1 (ix2 j c) = x0 (ix3 (0 : Fin 1) j c) * gain (g1 (ix2 (0 : Fin 1) c)) (fun j' => x0 (ix3 (0 : Fin 1) j' c)) := by
  show k0_pay2 x0 (ix2 j c) * broadcastTo S1024x64 (k0_pay5 x0 g1) broadcasts_S1x64_S1024x64 (ix2 j c) = _
  rw [pay2_apply, spreadRow, pay5_apply]

/-- e^{a − column max}. -/
def expd (a : FVec Ideal S1024x64 .f32) : FVec Ideal S1024x64 .f32 :=
  exp (subf a (broadcastTo S1024x64
    (shapeCast S1x64 (multiReduction .maximumf [0] S64 a 0xFF800000#32 reduces_S1024x64_S64 (.inl rfl) rfl) shapeCasts_S64_S1x64)
    broadcasts_S1x64_S1024x64))

theorem expd_apply (a : FVec Ideal S1024x64 .f32) (j : Fin 1024) (c : Fin 64) :
    expd a (ix2 j c) = Ideal.exp (a (ix2 j c) - top (fun j' => a (ix2 j' c))) := by
  show Ideal.exp (a (ix2 j c) - broadcastTo S1024x64
    (shapeCast S1x64 (multiReduction .maximumf [0] S64 a 0xFF800000#32 reduces_S1024x64_S64 (.inl rfl) rfl) shapeCasts_S64_S1x64)
    broadcasts_S1x64_S1024x64 (ix2 j c)) = _
  rw [spreadRow, rowOf, colmax]
  rfl

/-- The softmax-weighted column sums of a, as a row. -/
def wsumRow (a : FVec Ideal S1024x64 .f32) : FVec Ideal S1x64 .f32 :=
  shapeCast S1x64
    (multiReduction .add [0] S64
      (mulf (divf (expd a) (broadcastTo S1024x64
          (shapeCast S1x64 (multiReduction .add [0] S64 (expd a) 0x00000000#32 reduces_S1024x64_S64 (.inl rfl) rfl) shapeCasts_S64_S1x64)
          broadcasts_S1x64_S1024x64)) a)
      0x00000000#32 reduces_S1024x64_S64 (.inl rfl) rfl)
    shapeCasts_S64_S1x64

theorem wsumRow_apply (a : FVec Ideal S1024x64 .f32) (c : Fin 64) :
    wsumRow a (ix2 (0 : Fin 1) c) = wsum (fun j => a (ix2 j c)) := by
  unfold wsumRow
  rw [rowOf, colsum]
  unfold wsum
  refine Finset.sum_congr rfl fun j _ => ?_
  show Ideal.div (expd a (ix2 j c)) (broadcastTo S1024x64
      (shapeCast S1x64 (multiReduction .add [0] S64 (expd a) 0x00000000#32 reduces_S1024x64_S64 (.inl rfl) rfl) shapeCasts_S64_S1x64)
      broadcasts_S1x64_S1024x64 (ix2 j c)) * a (ix2 j c) = _
  rw [spreadRow, rowOf, colsum]
  simp only [expd_apply]

/-- The row T + β: the weighted sums of the scaled block plus the first shift row. -/
theorem pay6_apply (x0 : Vec Ideal S1x1024x64 .f32) (g1 b1 : Vec Ideal S1x64 .f32) (c : Fin 64) :
    k0_pay6 x0 g1 b1 (ix2 (0 : Fin 1) c)
      = wsum (fun j => x0 (ix3 (0 : Fin 1) j c) * gain (g1 (ix2 (0 : Fin 1) c)) (fun j' => x0 (ix3 (0 : Fin 1) j' c)))
        + b1 (ix2 (0 : Fin 1) c) := by
  show wsumRow (scaled x0 g1) (ix2 (0 : Fin 1) c) + shapeCast S1x64 b1 shapeCasts_S1x64_S1x64 (ix2 (0 : Fin 1) c) = _
  rw [shapeCast_self, wsumRow_apply]
  simp only [scaled_apply]

/-- The first-half features as the product's left operand: (T + β) row minus gain row times the block. -/
def featT (v1 : FVec Ideal S1024x64 .f32) (v24 v39 : FVec Ideal S1x64 .f32) : FVec Ideal S1024x64 .bf16 :=
  truncf .bf16 (subf (broadcastTo S1024x64 v39 broadcasts_S1x64_S1024x64)
    (mulf (broadcastTo S1024x64 v24 broadcasts_S1x64_S1024x64) v1)) bitsLt_bf16_f32

theorem featT_apply (v1 : FVec Ideal S1024x64 .f32) (v24 v39 : FVec Ideal S1x64 .f32) (i : Fin 1024) (c : Fin 64) :
    featT v1 v24 v39 (ix2 i c) = v39 (ix2 (0 : Fin 1) c) - v24 (ix2 (0 : Fin 1) c) * v1 (ix2 i c) := by
  show broadcastTo S1024x64 v39 broadcasts_S1x64_S1024x64 (ix2 i c)
      - broadcastTo S1024x64 v24 broadcasts_S1x64_S1024x64 (ix2 i c) * v1 (ix2 i c) = _
  rw [spreadRow, spreadRow]

/-- The second-half features as the product's left operand: gain row times the block plus the shift row. -/
def featC (v1 : FVec Ideal S1024x64 .f32) (v5 v9 : FVec Ideal S1x64 .f32) : FVec Ideal S1024x64 .bf16 :=
  truncf .bf16 (addf (mulf (broadcastTo S1024x64 v5 broadcasts_S1x64_S1024x64) v1)
    (broadcastTo S1024x64 v9 broadcasts_S1x64_S1024x64)) bitsLt_bf16_f32

theorem featC_apply (v1 : FVec Ideal S1024x64 .f32) (v5 v9 : FVec Ideal S1x64 .f32) (i : Fin 1024) (c : Fin 64) :
    featC v1 v5 v9 (ix2 i c) = v5 (ix2 (0 : Fin 1) c) * v1 (ix2 i c) + v9 (ix2 (0 : Fin 1) c) := by
  show broadcastTo S1024x64 v5 broadcasts_S1x64_S1024x64 (ix2 i c) * v1 (ix2 i c)
      + broadcastTo S1024x64 v9 broadcasts_S1x64_S1024x64 (ix2 i c) = _
  rw [spreadRow, spreadRow]

/-- The body's dimension numbers are those of a plain [1024,64]·[64,64] product. -/
theorem dot_eq : dot_S1024x64_S64x64_S1024x64_1_0_0_1_n_n = DotDims.plain 1024 64 64 :=
  Cert.Lib.PlainDot.eq_plain _ rfl rfl rfl rfl rfl rfl

/-- A product into the zero accumulator at (i, o): Σ_c l(i,c)·r(c,o). -/
theorem prod_apply {φ₁ φ₂ : FTy} (l : FVec Ideal S1024x64 φ₁) (r : FVec Ideal S64x64 φ₂) (i : Fin 1024) (o : Fin 64) :
    matmul dot_S1024x64_S64x64_S1024x64_1_0_0_1_n_n none l r (constant S1024x64 .f32 0x00000000#32) (ix2 i o)
      = ∑ c : Fin 64, l (ix2 i c) * r (ix2 c o) := by
  rw [dot_eq]
  exact Cert.Lib.PlainDot.matmul_zero_plain_apply none l r (ix2 i o)

/-- The stored value at (0, i, o): the two products added, rectified. -/
theorem pay1_apply (v1 : FVec Ideal S1024x64 .f32) (v5 v9 v24 v39 : FVec Ideal S1x64 .f32) (w1 w2 : Vec Ideal S64x64 .bf16)
    (i : Fin 1024) (o : Fin 64) :
    k0_pay1 v1 v5 v9 v24 v39 w1 w2 (ix3 (0 : Fin 1) i o)
      = max ((∑ c : Fin 64, (v39 (ix2 (0 : Fin 1) c) - v24 (ix2 (0 : Fin 1) c) * v1 (ix2 i c)) * w1 (ix2 c o))
          + (∑ c : Fin 64, (v5 (ix2 (0 : Fin 1) c) * v1 (ix2 i c) + v9 (ix2 (0 : Fin 1) c)) * w2 (ix2 c o)))
        (Ideal.ofBits .f32 0x00000000#32) := by
  show shapeCast S1x1024x64
      (maximumf
        (addf
          (matmul dot_S1024x64_S64x64_S1024x64_1_0_0_1_n_n none (featT v1 v24 v39) (shapeCast S64x64 w1 shapeCasts_S64x64_S64x64)
            (constant S1024x64 .f32 0x00000000#32))
          (matmul dot_S1024x64_S64x64_S1024x64_1_0_0_1_n_n none (featC v1 v5 v9) (shapeCast S64x64 w2 shapeCasts_S64x64_S64x64)
            (constant S1024x64 .f32 0x00000000#32)))
        (broadcast S1024x64 (Scalar.ofBits .f32 0x00000000#32)))
      shapeCasts_S1024x64_S1x1024x64 (ix3 (0 : Fin 1) i o) = _
  rw [shapeCast_ab_1ab_apply]
  show max (matmul dot_S1024x64_S64x64_S1024x64_1_0_0_1_n_n none (featT v1 v24 v39) (shapeCast S64x64 w1 shapeCasts_S64x64_S64x64)
            (constant S1024x64 .f32 0x00000000#32) (ix2 i o)
          + matmul dot_S1024x64_S64x64_S1024x64_1_0_0_1_n_n none (featC v1 v5 v9) (shapeCast S64x64 w2 shapeCasts_S64x64_S64x64)
            (constant S1024x64 .f32 0x00000000#32) (ix2 i o))
        (Ideal.ofBits .f32 0x00000000#32) = _
  rw [prod_apply, prod_apply, shapeCast_self, shapeCast_self]
  simp only [featT_apply, featC_apply]

/-- THE BODY AT AN INDEX: from the block, the four rows and the two weight blocks, entry (0, i, o) of what the body
    stores is the kernel's arrangement of the specification — the first-half features against the first weight block
    plus the second-half features against the second, rectified. -/
theorem body_apply (x0 : Vec Ideal S1x1024x64 .f32) (g1 g2 b1 b2 : Vec Ideal S1x64 .f32) (w1 w2 : Vec Ideal S64x64 .bf16)
    (i : Fin 1024) (o : Fin 64) :
    k0_pay1 (k0_pay2 x0) (k0_pay3 g2) (k0_pay4 b2) (k0_pay5 x0 g1) (k0_pay6 x0 g1 b1) w1 w2 (ix3 (0 : Fin 1) i o)
      = max ((∑ c : Fin 64, tilde (g1 (ix2 (0 : Fin 1) c)) (b1 (ix2 (0 : Fin 1) c)) (fun j => x0 (ix3 (0 : Fin 1) j c)) i * w1 (ix2 c o))
          + (∑ c : Fin 64, center (g2 (ix2 (0 : Fin 1) c)) (b2 (ix2 (0 : Fin 1) c)) (x0 (ix3 (0 : Fin 1) i c)) * w2 (ix2 c o))) 0 := by
  rw [pay1_apply, Ideal.ofBits_zero_f32]
  have e3 : k0_pay3 g2 = g2 := shapeCast_self g2 shapeCasts_S1x64_S1x64
  have e4 : k0_pay4 b2 = b2 := shapeCast_self b2 shapeCasts_S1x64_S1x64
  rw [e3, e4]
  simp only [pay2_apply, pay5_apply, pay6_apply]
  rfl

end Cert.KernelIdeal.Pay

end
-- ==== Proof.KerHost.lean ====
/-
  What the region finds in the six operands the host prepares before the call, read at an index.

  The gains and the shifts arrive as [1,1,1,128]; the host flattens each to [128], cuts it into its two halves
  [0:64] and [64:128] and sets each half as a row [1,64]: entry (0, c) of a first-half row is entry lo c of the
  argument, entry (0, c) of a second-half row is entry hi c. The weights W [64,128] are transposed to [128,64] and cut
  into rows [0:64] and [64:128] (the change of float format is the identity): entry (c, o) of the first block is
  W(o, lo c), of the second W(o, hi c).
-/
import proofs.«142952_j53334903882146_2_alg».proof.Proof.Gen.KernelIdeal.Frame
import proofs.«142952_j53334903882146_2_alg».proof.Proof.Spec
import Idealize.ShloMosaic.Lib.StableHlo.Run
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
  Idealize.ShloMosaic.StableHlo Idealize.ShloMosaic.ValueIdx Cert.Fusion

/-! ## The layout operations at an index -/

/-- [1,1,1,128] flattened to [128]: entry k is entry (0,0,0,k). -/
theorem flat_apply (g : S1x1x1x128.Idx → EReal) (k : Fin 128) :
    shapeCast S128 g shapeCasts_S1x1x1x128_S128 (ix1 k) = g (ix4 (0 : Fin 1) (0 : Fin 1) (0 : Fin 1) k) :=
  shapeCast_apply g shapeCasts_S1x1x1x128_S128 _ _ (by
    rw [Shape.rowMajor_val_four, Shape.rowMajor_val_one]
    show ((0 * 1 + 0) * 1 + 0) * 128 + k.val = k.val
    omega)

/-- The first half [0:64] of a [128] vector. -/
theorem half0_apply (u : S128.Idx → EReal) (c : Fin 64) :
    extractStridedSlice S64 ![0] u slices_S128_S64_0 (ix1 c) = u (ix1 (lo c)) :=
  extractStridedSlice_apply _ u slices_S128_S64_0 _ _ (fun a => by
    match a with
    | ⟨0, _⟩ => show c.val = 0 + c.val; omega)

/-- The second half [64:128] of a [128] vector. -/
theorem half1_apply (u : S128.Idx → EReal) (c : Fin 64) :
    extractStridedSlice S64 ![64] u slices_S128_S64_64 (ix1 c) = u (ix1 (hi c)) :=
  extractStridedSlice_apply _ u slices_S128_S64_64 _ _ (fun a => by
    match a with
    | ⟨0, _⟩ => rfl)

/-- A [64] vector set as the row [1,64]. -/
theorem row_apply (u : S64.Idx → EReal) (c : Fin 64) :
    shapeCast S1x64 u shapeCasts_S64_S1x64 (ix2 (0 : Fin 1) c) = u (ix1 c) :=
  shapeCast_a_1a_apply u shapeCasts_S64_S1x64 0 c

/-- Rows [0:64] of the transposed weights: entry (c, o) is W(o, lo c). -/
theorem wblock0_apply (W : S64x128.Idx → EReal) (c o : Fin 64) :
    extractStridedSlice S64x64 ![0, 0] (transpose S128x64 [1, 0] W transposes_S64x128_S128x64_1_0) slices_S128x64_S64x64_0_0 (ix2 c o)
      = W (ix2 o (lo c)) := by
  rw [slice2_axis0_apply 0 _ slices_S128x64_S64x64_0_0 c o (lo c) (by show c.val = 0 + c.val; omega)]
  exact transpose_ix2_apply W transposes_S64x128_S128x64_1_0 (lo c) o

/-- Rows [64:128] of the transposed weights: entry (c, o) is W(o, hi c). -/
theorem wblock1_apply (W : S64x128.Idx → EReal) (c o : Fin 64) :
    extractStridedSlice S64x64 ![64, 0] (transpose S128x64 [1, 0] W transposes_S64x128_S128x64_1_0) slices_S128x64_S64x64_64_0 (ix2 c o)
      = W (ix2 o (hi c)) := by
  rw [slice2_axis0_apply 64 _ slices_S128x64_S64x64_64_0 c o (hi c) rfl]
  exact transpose_ix2_apply W transposes_S64x128_S128x64_1_0 (hi c) o

/-! ## The operands as the region finds them -/

variable (m : (ℓ : Loc nD τ sig) → Buf (Elt Ideal) ℓ)

/-- The first-half gain row. -/
theorem gainRow0 (c : Dev nD) (k : Fin 64) :
    (V m c main_v3 : S1x64.Idx → EReal) (ix2 (0 : Fin 1) k)
      = (m ((c : Thread nD τ).loc main_arg1) : S1x1x1x128.Idx → EReal) (ix4 (0 : Fin 1) (0 : Fin 1) (0 : Fin 1) (lo k)) := by
  have e : (V m c main_v3 : S1x64.Idx → EReal)
      = shapeCast S1x64 (extractStridedSlice S64 ![0]
          (shapeCast S128 (m ((c : Thread nD τ).loc main_arg1) : S1x1x1x128.Idx → EReal) shapeCasts_S1x1x1x128_S128) slices_S128_S64_0)
          shapeCasts_S64_S1x64 := by
    dsimp only [V, hostOps0]; after_results; rfl
  rw [e, row_apply, half0_apply, flat_apply]

/-- The second-half gain row. -/
theorem gainRow1 (c : Dev nD) (k : Fin 64) :
    (V m c main_v5 : S1x64.Idx → EReal) (ix2 (0 : Fin 1) k)
      = (m ((c : Thread nD τ).loc main_arg1) : S1x1x1x128.Idx → EReal) (ix4 (0 : Fin 1) (0 : Fin 1) (0 : Fin 1) (hi k)) := by
  have e : (V m c main_v5 : S1x64.Idx → EReal)
      = shapeCast S1x64 (extractStridedSlice S64 ![64]
          (shapeCast S128 (m ((c : Thread nD τ).loc main_arg1) : S1x1x1x128.Idx → EReal) shapeCasts_S1x1x1x128_S128) slices_S128_S64_64)
          shapeCasts_S64_S1x64 := by
    dsimp only [V, hostOps0]; after_results; rfl
  rw [e, row_apply, half1_apply, flat_apply]

/-- The first-half shift row. -/
theorem shiftRow0 (c : Dev nD) (k : Fin 64) :
    (V m c main_v7 : S1x64.Idx → EReal) (ix2 (0 : Fin 1) k)
      = (m ((c : Thread nD τ).loc main_arg2) : S1x1x1x128.Idx → EReal) (ix4 (0 : Fin 1) (0 : Fin 1) (0 : Fin 1) (lo k)) := by
  have e : (V m c main_v7 : S1x64.Idx → EReal)
      = shapeCast S1x64 (extractStridedSlice S64 ![0]
          (shapeCast S128 (m ((c : Thread nD τ).loc main_arg2) : S1x1x1x128.Idx → EReal) shapeCasts_S1x1x1x128_S128) slices_S128_S64_0)
          shapeCasts_S64_S1x64 := by
    dsimp only [V, hostOps0]; after_results; rfl
  rw [e, row_apply, half0_apply, flat_apply]

/-- The second-half shift row. -/
theorem shiftRow1 (c : Dev nD) (k : Fin 64) :
    (V m c main_v9 : S1x64.Idx → EReal) (ix2 (0 : Fin 1) k)
      = (m ((c : Thread nD τ).loc main_arg2) : S1x1x1x128.Idx → EReal) (ix4 (0 : Fin 1) (0 : Fin 1) (0 : Fin 1) (hi k)) := by
  have e : (V m c main_v9 : S1x64.Idx → EReal)
      = shapeCast S1x64 (extractStridedSlice S64 ![64]
          (shapeCast S128 (m ((c : Thread nD τ).loc main_arg2) : S1x1x1x128.Idx → EReal) shapeCasts_S1x1x1x128_S128) slices_S128_S64_64)
          shapeCasts_S64_S1x64 := by
    dsimp only [V, hostOps0]; after_results; rfl
  rw [e, row_apply, half1_apply, flat_apply]

/-- The first weight block. -/
theorem weights0 (c : Dev nD) (k o : Fin 64) :
    (V m c main_v12 : S64x64.Idx → EReal) (ix2 k o)
      = (m ((c : Thread nD τ).loc main_arg3) : S64x128.Idx → EReal) (ix2 o (lo k)) := by
  have e : (V m c main_v12 : S64x64.Idx → EReal)
      = (truncf (F := Ideal) .bf16 (extractStridedSlice S64x64 ![0, 0]
          (transpose S128x64 [1, 0] (m ((c : Thread nD τ).loc main_arg3) : FVec Ideal S64x128 .f32) transposes_S64x128_S128x64_1_0)
          slices_S128x64_S64x64_0_0 : FVec Ideal S64x64 .f32) bitsLt_bf16_f32 : S64x64.Idx → EReal) := by
    dsimp only [V, hostOps0]; after_results
  rw [e]
  exact wblock0_apply _ k o

/-- The second weight block. -/
theorem weights1 (c : Dev nD) (k o : Fin 64) :
    (V m c main_v14 : S64x64.Idx → EReal) (ix2 k o)
      = (m ((c : Thread nD τ).loc main_arg3) : S64x128.Idx → EReal) (ix2 o (hi k)) := by
  have e : (V m c main_v14 : S64x64.Idx → EReal)
      = (truncf (F := Ideal) .bf16 (extractStridedSlice S64x64 ![64, 0]
          (transpose S128x64 [1, 0] (m ((c : Thread nD τ).loc main_arg3) : FVec Ideal S64x128 .f32) transposes_S64x128_S128x64_1_0)
          slices_S128x64_S64x64_64_0 : FVec Ideal S64x64 .f32) bitsLt_bf16_f32 : S64x64.Idx → EReal) := by
    dsimp only [V, hostOps0]; after_results
  rw [e]
  exact wblock1_apply _ k o

end Cert.KernelIdeal.HostSide

end
-- ==== Proof.KerArray.lean ====
/-
  From what each grid point writes back to the whole output array.

  The grid has one point per batch. Point t fetches block t of x (all 1024 rows and 64 channels of one batch), the
  four rows and the two weight blocks whole, and writes back block t of the output. Distinct points write disjoint
  blocks, so entry (b, i, o) of the final array is entry (0, i, o) of what the point of batch b wrote: the body's
  value there, which is the kernel's arrangement of the specification on batch b.
-/
import proofs.«142952_j53334903882146_2_alg».proof.Proof.Gen.KernelIdeal.Value
import proofs.«142952_j53334903882146_2_alg».proof.Proof.KerPay
import proofs.«142952_j53334903882146_2_alg».proof.Proof.KerHost

noncomputable section

namespace Cert.KernelIdeal.ArrayValue

open Cert.KernelIdeal Cert.KernelIdeal.Gen Cert.KernelIdeal.Value Idealize.ShloMosaic Idealize.ShloMosaic.TcCoe
  Idealize.SL.Sem Idealize.ShloMosaic.ValueIdx Cert.Fusion
open Idealize.ShloMosaic.Pipeline (Dat)

variable (m : (ℓ : Loc nD τ sig) → Buf (Elt Ideal) ℓ) (ρ : Dev nD → PrngReg)

/-- The argument arrays as families over plain indices: x(b,i,c), γ(k), β(k), W(o,k). -/
def argX (c : Dev nD) : Fin 2 → Fin 1024 → Fin 64 → EReal :=
  fun b i k => (m ((c : Thread nD τ).loc main_arg0) : S2x1024x64.Idx → EReal) (ix3 b i k)
def argG (c : Dev nD) : Fin 128 → EReal :=
  fun k => (m ((c : Thread nD τ).loc main_arg1) : S1x1x1x128.Idx → EReal) (ix4 (0 : Fin 1) (0 : Fin 1) (0 : Fin 1) k)
def argB (c : Dev nD) : Fin 128 → EReal :=
  fun k => (m ((c : Thread nD τ).loc main_arg2) : S1x1x1x128.Idx → EReal) (ix4 (0 : Fin 1) (0 : Fin 1) (0 : Fin 1) k)
def argW (c : Dev nD) : Fin 64 → Fin 128 → EReal :=
  fun o k => (m ((c : Thread nD τ).loc main_arg3) : S64x128.Idx → EReal) (ix2 o k)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the two grid points: the block of x moves with the output's block along
    the batch axis and sits at 0 on the other two; every other operand's block is the whole array. -/
theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0 ∧ win0_7.index t (0 : Fin 3) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every batch is some point's. -/
theorem idx_onto : ∀ q : Fin 2, ∃ t : Fin cfg0.N, win0_7.index t (0 : Fin 3) = q.val :=
  (by decide +kernel : ∀ q : Fin 2, ∃ t : Fin grid0.N, win0_7.index t (0 : Fin 3) = q.val)

/-! ## The blocks a point reads -/

/-- Entry (0, j, k) of the block of x at point t is x(b, j, k), b the point's batch. -/
theorem block_x (c : Dev nD) (t : Fin cfg0.N) (b : Fin 2) (hb : win0_7.index t (0 : Fin 3) = b.val) (j : Fin 1024) (k : Fin 64) :
    iblk m c 0 t (ix3 (0 : Fin 1) j k) = argX m c b j k := by
  obtain ⟨e0, e1, e2, -⟩ := idx_facts t
  have h : ((cfg0.win 0).blk t).view.emb (ix3 (0 : Fin 1) j k) = ix3 b j k := by
    funext a; apply Fin.ext
    match a with
    | ⟨0, _⟩ => show win0_0.index t (0 : Fin 3) * 1 + 1 * 0 = b.val; omega
    | ⟨1, _⟩ => show win0_0.index t (1 : Fin 3) * 1024 + 1 * j.val = j.val; omega
    | ⟨2, _⟩ => show win0_0.index t (2 : Fin 3) * 64 + 1 * k.val = k.val; omega
  show (V m c main_arg0 : S2x1024x64.Idx → EReal) (((cfg0.win 0).blk t).view.emb (ix3 (0 : Fin 1) j k)) = _
  rw [h, V_main_arg0]
  rfl

/-- The first-half gain row at a point. -/
theorem block_g0 (c : Dev nD) (t : Fin cfg0.N) (k : Fin 64) :
    iblk m c 1 t (ix2 (0 : Fin 1) k) = argG m c (lo k) := by
  obtain ⟨-, -, -, -, -, -, e0, e1, -⟩ := idx_facts t
  have h : ((cfg0.win 1).blk t).view.emb (ix2 (0 : Fin 1) k) = ix2 (0 : Fin 1) k := by
    funext a; apply Fin.ext
    match a with
    | ⟨0, _⟩ => show win0_1.index t (0 : Fin 2) * 1 + 1 * 0 = 0; omega
    | ⟨1, _⟩ => show win0_1.index t (1 : Fin 2) * 64 + 1 * k.val = k.val; omega
  show (V m c main_v3 : S1x64.Idx → EReal) (((cfg0.win 1).blk t).view.emb (ix2 (0 : Fin 1) k)) = _
  rw [h]
  exact HostSide.gainRow0 m c k

/-- The second-half gain row at a point. -/
theorem block_g1 (c : Dev nD) (t : Fin cfg0.N) (k : Fin 64) :
    iblk m c 2 t (ix2 (0 : Fin 1) k) = argG m c (hi k) := by
  obtain ⟨-, -, -, -, -, -, -, -, e0, e1, -⟩ := idx_facts t
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 64 + 1 * k.val = k.val; omega
  show (V m c main_v5 : S1x64.Idx → EReal) (((cfg0.win 2).blk t).view.emb (ix2 (0 : Fin 1) k)) = _
  rw [h]
  exact HostSide.gainRow1 m c k

/-- The first-half shift row at a point. -/
theorem block_b0 (c : Dev nD) (t : Fin cfg0.N) (k : Fin 64) :
    iblk m c 3 t (ix2 (0 : Fin 1) k) = argB m c (lo k) := by
  obtain ⟨-, -, -, -, -, -, -, -, -, -, e0, e1, -⟩ := idx_facts t
  have h : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 64 + 1 * k.val = k.val; omega
  show (V m c main_v7 : S1x64.Idx → EReal) (((cfg0.win 3).blk t).view.emb (ix2 (0 : Fin 1) k)) = _
  rw [h]
  exact HostSide.shiftRow0 m c k

/-- The second-half shift row at a point. -/
theorem block_b1 (c : Dev nD) (t : Fin cfg0.N) (k : Fin 64) :
    iblk m c 4 t (ix2 (0 : Fin 1) k) = argB m c (hi k) := by
  obtain ⟨-, -, -, -, -, -, -, -, -, -, -, -, e0, e1, -⟩ := idx_facts t
  have h : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 64 + 1 * k.val = k.val; omega
  show (V m c main_v9 : S1x64.Idx → EReal) (((cfg0.win 4).blk t).view.emb (ix2 (0 : Fin 1) k)) = _
  rw [h]
  exact HostSide.shiftRow1 m c k

/-- The first weight block at a point. -/
theorem block_w0 (c : Dev nD) (t : Fin cfg0.N) (k o : Fin 64) :
    iblk m c 5 t (ix2 k o) = argW m c o (lo k) := by
  obtain ⟨-, -, -, -, -, -, -, -, -, -, -, -, -, -, e0, e1, -⟩ := idx_facts t
  have h : ((cfg0.win 5).blk t).view.emb (ix2 k o) = ix2 k o := by
    funext a; apply Fin.ext
    match a with
    | ⟨0, _⟩ => show win0_5.index t (0 : Fin 2) * 64 + 1 * k.val = k.val; omega
    | ⟨1, _⟩ => show win0_5.index t (1 : Fin 2) * 64 + 1 * o.val = o.val; omega
  show (V m c main_v12 : S64x64.Idx → EReal) (((cfg0.win 5).blk t).view.emb (ix2 k o)) = _
  rw [h]
  exact HostSide.weights0 m c k o

/-- The second weight block at a point. -/
theorem block_w1 (c : Dev nD) (t : Fin cfg0.N) (k o : Fin 64) :
    iblk m c 6 t (ix2 k o) = argW m c o (hi k) := by
  obtain ⟨-, -, -, -, -, -, -, -, -, -, -, -, -, -, -, -, e0, e1⟩ := idx_facts t
  have h : ((cfg0.win 6).blk t).view.emb (ix2 k o) = ix2 k o := by
    funext a; apply Fin.ext
    match a with
    | ⟨0, _⟩ => show win0_6.index t (0 : Fin 2) * 64 + 1 * k.val = k.val; omega
    | ⟨1, _⟩ => show win0_6.index t (1 : Fin 2) * 64 + 1 * o.val = o.val; omega
  show (V m c main_v14 : S64x64.Idx → EReal) (((cfg0.win 6).blk t).view.emb (ix2 k o)) = _
  rw [h]
  exact HostSide.weights1 m c k o

/-! ## What a point writes back, and the final array -/

/-- Entry (0, i, o) of what the point of batch b writes back is the kernel's function on batch b. -/
theorem flushed_apply (c : Dev nD) (t : Fin cfg0.N) (b : Fin 2) (hb : win0_7.index t (0 : Fin 3) = b.val) (i : Fin 1024) (o : Fin 64) :
    (dats m 0 c).flushed 7 t (ix3 (0 : Fin 1) i o) = GK (argX m c) (argG m c) (argB m c) (argW m c) b i o := by
  rw [flushed7]
  unfold out0_7
  rw [View.canon_unit_zero hz3]
  simp only [View.ld_unit_zero (S := S1x1024x64) hz3, View.ld_unit_zero (S := S1x64) hz2, View.ld_unit_zero (S := S64x64) hz2]
  show k0_pay1 (k0_pay2 (iblk m c 0 t)) (k0_pay3 (iblk m c 2 t)) (k0_pay4 (iblk m c 4 t)) (k0_pay5 (iblk m c 0 t) (iblk m c 1 t))
      (k0_pay6 (iblk m c 0 t) (iblk m c 1 t) (iblk m c 3 t)) (iblk m c 5 t) (iblk m c 6 t) (ix3 (0 : Fin 1) i o) = _
  refine (Pay.body_apply (iblk m c 0 t) (iblk m c 1 t) (iblk m c 2 t) (iblk m c 3 t) (iblk m c 4 t) (iblk m c 5 t) (iblk m c 6 t) i o).trans ?_
  simp only [block_x m c t b hb, block_g0, block_g1, block_b0, block_b1, block_w0, block_w1]
  rfl

/-- Entry (b, i, o) of the output array after the run. -/
theorem final_apply (c : Dev nD) (b : Fin 2) (i : Fin 1024) (o : Fin 64) :
    ((dats m 0 c).arrAt 7 cfg0.N : S2x1024x64.Idx → EReal) (ix3 b i o) = GK (argX m c) (argG m c) (argB m c) (argW m c) b i o := by
  obtain ⟨t, ht⟩ := idx_onto b
  obtain ⟨-, -, -, e1, e2, -⟩ := idx_facts t
  have hemb : ((cfg0.win 7).blk t).view.emb (ix3 (0 : Fin 1) i o) = ix3 b i o := by
    funext a; apply Fin.ext
    match a with
    | ⟨0, _⟩ => show win0_7.index t (0 : Fin 3) * 1 + 1 * 0 = b.val; omega
    | ⟨1, _⟩ => show win0_7.index t (1 : Fin 3) * 1024 + 1 * i.val = i.val; omega
    | ⟨2, _⟩ => show win0_7.index t (2 : Fin 3) * 64 + 1 * o.val = o.val; omega
  have h1 := congrFun (blocks7 m c t (flush0_7 t)) (ix3 (0 : Fin 1) i o)
  rw [← hemb]
  exact h1.trans (flushed_apply m c t b ht i o)

end Cert.KernelIdeal.ArrayValue

end
-- ==== Proof.RefTerm.lean ====
/-
  What the reference computes, as one pure term of its four argument arrays, cut into stages.

  `diff x` is x[b,j,c] − x[b,i,c] over [2,1024,1024,64]; `varOf d ddof` is the variance of d along its axis 2 with
  keepdims, written as jnp.var writes it (the mean removed, the squares summed, the sum divided by 1024 − ddof,
  and a guard that answers NaN when that divisor is not positive); `logits` scales the differences by
  1/√(var + ε), sets the row's own entries beside them along the last axis, and applies the gains and shifts;
  `wsumOf L` is Σ_j softmax_j(L)·L along axis 2; `out` is the product with W over the 128 features, rectified.
-/
import proofs.«142952_j53334903882146_2_alg».proof.Proof.Gen.ReferenceIdeal

noncomputable section

namespace Cert.ReferenceIdeal.RefValue

open Cert.ReferenceIdeal Cert.ReferenceIdeal.Gen Idealize.ShloMosaic

variable {F : FTy → Type} [FloatOps F]

/-- x[b,j,c] − x[b,i,c] at (b,i,j,c). -/
def diff (x : FVec F S2x1024x64 .f32) : FVec F S2x1024x1024x64 .f32 :=
  subf
    (broadcastInDim S2x1024x1024x64 ![0, 1, 2, 3] bcast_S2x1x1024x64_S2x1024x1024x64_0_1_2_3
      (broadcastInDim S2x1x1024x64 ![0, 2, 3] bcast_S2x1024x64_S2x1x1024x64_0_2_3 x))
    (broadcastInDim S2x1024x1024x64 ![0, 1, 2, 3] bcast_S2x1024x1x64_S2x1024x1024x64_0_1_2_3
      (broadcastInDim S2x1024x1x64 ![0, 1, 3] bcast_S2x1024x64_S2x1024x1x64_0_1_3 x))

/-- d minus its mean along axis 2 (the sum over axis 2 divided by 1024, kept as a unit axis and spread back). -/
def centred (d : FVec F S2x1024x1024x64 .f32) : FVec F S2x1024x1024x64 .f32 :=
  subf d
    (broadcastInDim S2x1024x1024x64 ![0, 1, 2, 3] bcast_S2x1024x1x64_S2x1024x1024x64_0_1_2_3
      (Host.divf
        (broadcastInDim S2x1024x1x64 ![0, 1, 3] bcast_S2x1024x64_S2x1024x1x64_0_1_3
          (Host.reduceAdd d (constant S_ .f32 0x00000000#32) reducesTo_S2x1024x1024x64_S2x1024x64_d2 h_S_))
        (broadcastInDim S2x1024x1x64 ![] bcast_S_S2x1024x1x64 (constant S_ .f32 0x44800000#32))))

/-- 1024 − ddof as a float scalar. -/
def divisor (ddof : IVec S_ 32) : FVec F S_ .f32 :=
  subf (constant S_ .f32 0x44800000#32) (sitofp .f32 ddof)

/-- The variance along axis 2, keepdims: Σ_j centred² / (1024 − ddof) where that divisor is positive, else the NaN word. -/
def varOf (d : FVec F S2x1024x1024x64 .f32) (ddof : IVec S_ 32) : FVec F S2x1024x1x64 .f32 :=
  select
    (broadcastInDim S2x1024x1x64 ![] bcast_S_S2x1024x1x64
      (cmpf .ogt (divisor (F := F) ddof) (constant S_ .f32 0x00000000#32)))
    (Host.divf
      (broadcastInDim S2x1024x1x64 ![0, 1, 3] bcast_S2x1024x64_S2x1024x1x64_0_1_3
        (Host.reduceAdd (mulf (centred d) (centred d)) (constant S_ .f32 0x00000000#32)
          reducesTo_S2x1024x1024x64_S2x1024x64_d2 h_S_))
      (broadcastInDim S2x1024x1x64 ![] bcast_S_S2x1024x1x64 (divisor (F := F) ddof)))
    (broadcastInDim S2x1024x1x64 ![] bcast_S_S2x1024x1x64 (id (constant S_ .f32 0x7FC00000#32)))

/-- The 128 logits of every (b,i,j): the scaled differences beside the row's own entries, times γ, plus β. -/
def logits (x : FVec F S2x1024x64 .f32) (γ β : FVec F S1x1x1x128 .f32) : FVec F S2x1024x1024x128 .f32 :=
  addf
    (mulf
      (concatenate S2x1024x1024x128 3
        [⟨S2x1024x1024x64,
            mulf (diff x)
              (broadcastInDim S2x1024x1024x64 ![0, 1, 2, 3] bcast_S2x1024x1x64_S2x1024x1024x64_0_1_2_3
                (Host.rsqrt
                  (addf (varOf (diff x) (constantI S_ 32 0#32))
                    (broadcastInDim S2x1024x1x64 ![] bcast_S_S2x1024x1x64 (constant S_ .f32 0x3727C5AC#32)))))⟩,
         ⟨S2x1024x1024x64,
            broadcastInDim S2x1024x1024x64 ![0, 1, 2, 3] bcast_S2x1024x1x64_S2x1024x1024x64_0_1_2_3
              (broadcastInDim S2x1024x1x64 ![0, 1, 3] bcast_S2x1024x64_S2x1024x1x64_0_1_3 x)⟩]
        concatenates_S2x1024x1024x64_S2x1024x1024x64_S2x1024x1024x128_d3)
      (broadcastInDim S2x1024x1024x128 ![0, 1, 2, 3] bcast_S1x1x1x128_S2x1024x1024x128_0_1_2_3 γ))
    (broadcastInDim S2x1024x1024x128 ![0, 1, 2, 3] bcast_S1x1x1x128_S2x1024x1024x128_0_1_2_3 β)

/-- A per-(b,i,k) value kept as a unit axis 2 and spread back over the 1024 neighbours. -/
def spread (r : FVec F S2x1024x128 .f32) : FVec F S2x1024x1024x128 .f32 :=
  broadcastInDim S2x1024x1024x128 ![0, 1, 2, 3] bcast_S2x1024x1x128_S2x1024x1024x128_0_1_2_3
    (broadcastInDim S2x1024x1x128 ![0, 1, 3] bcast_S2x1024x128_S2x1024x1x128_0_1_3 r)

/-- e^{L − max_j L}, the maximum taken from −∞ and once more against −∞. -/
def expo (L : FVec F S2x1024x1024x128 .f32) : FVec F S2x1024x1024x128 .f32 :=
  Host.exp
    (subf L
      (spread
        (maximumf (broadcastInDim S2x1024x128 ![] bcast_S_S2x1024x128 (constant S_ .f32 0xFF800000#32))
          (Host.reduce FloatOps.maximumf L (constant S_ .f32 0xFF800000#32) reducesTo_S2x1024x1024x128_S2x1024x128_d2 h_S_))))

/-- Σ_j (e_j / Σ_j' e_j') · L_j along axis 2. -/
def wsumOf (L : FVec F S2x1024x1024x128 .f32) : FVec F S2x1024x128 .f32 :=
  Host.reduceAdd
    (mulf
      (Host.divf (expo L)
        (spread (Host.reduceAdd (expo L) (constant S_ .f32 0x00000000#32) reducesTo_S2x1024x1024x128_S2x1024x128_d2 h_S_)))
      L)
    (constant S_ .f32 0x00000000#32) reducesTo_S2x1024x1024x128_S2x1024x128_d2 h_S_

/-- The reference's result: the features against W's rows, rectified. -/
def out (x : FVec F S2x1024x64 .f32) (γ β : FVec F S1x1x1x128 .f32) (W : FVec F S64x128 .f32) : FVec F S2x1024x64 .f32 :=
  maximumf
    (Host.dotGeneral dot_S2x1024x128_S64x128_S2x1024x64_2_1_01_0_n_n none (wsumOf (logits x γ β)) W)
    (broadcastInDim S2x1024x64 ![] bcast_S_S2x1024x64 (constant S_ .f32 0x00000000#32))

end Cert.ReferenceIdeal.RefValue

end
-- ==== Proof.RefRunOps.lean ====
/-
  The reference program's @main as one straight line of its 63 host operations, the three outlined functions'
  bodies listed at their call sites over the calls' own buffers (the variance's 20 operations and, nested in it,
  the guard's 3, after @main's first 6; the rectifier's 3 at the end), and the run of that line: every weakly
  fair execution terminates with each buffer at the fold of the operations' results over the launch contents.
-/
import proofs.«142952_j53334903882146_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the differences (6, the last the integer zero handed to the
    variance), the variance over the call's buffers (20: the mean removed, the squares summed, the divisor
    1024 − ddof, the quotient, the test that the divisor is positive, the NaN word), the guard nested in it (3: the
    word converted to its own type, spread, the select, whose result is the variance's), then the scaling, the
    concatenation, gains and shifts, the softmax-weighted sum, the product with W (31), and the rectifier (3). -/
abbrev ops : List (HloOp τ sig (Elt F)) :=
  [ unary main_arg0 main_v0 (broadcastInDim S2x1x1024x64 ![0, 2, 3] bcast_S2x1024x64_S2x1x1024x64_0_2_3 : (⟨S2x1024x64, .f32⟩ : BufTy).Contents (Elt F) → (⟨S2x1x1024x64, .f32⟩ : BufTy).Contents (Elt F)),
    unary main_arg0 main_v1 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    unary main_v0 main_v2 (broadcastInDim S2x1024x1024x64 ![0, 1, 2, 3] bcast_S2x1x1024x64_S2x1024x1024x64_0_1_2_3 : (⟨S2x1x1024x64, .f32⟩ : BufTy).Contents (Elt F) → (⟨S2x1024x1024x64, .f32⟩ : BufTy).Contents (Elt F)),
    unary main_v1 main_v3 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)),
    binary main_v2 main_v3 main_v4 (subf : (⟨S2x1024x1024x64, .f32⟩ : BufTy).Contents (Elt F) → (⟨S2x1024x1024x64, .f32⟩ : BufTy).Contents (Elt F) → (⟨S2x1024x1024x64, .f32⟩ : BufTy).Contents (Elt F)),
    nullary main_c (constantI S_ 32 0#32),
    TRef.nullary main_call0.cst (constant S_ .f32 0x00000000#32),
    TRef.binary (.of main_v4) main_call0.cst main_call0.v0 (fun x v => Host.reduceAdd x v reducesTo_S2x1024x1024x64_S2x1024x64_d2 h_S_),
    TRef.unary main_call0.v0 main_call0.v1 (broadcastInDim S2x1024x1x64 ![0, 1, 3] bcast_S2x1024x64_S2x1024x1x64_0_1_3),
    TRef.nullary main_call0.cst_0 (constant S_ .f32 0x44800000#32),
    TRef.unary main_call0.cst_0 main_call0.v2 (broadcastInDim S2x1024x1x64 ![] bcast_S_S2x1024x1x64),
    TRef.binary main_call0.v1 main_call0.v2 main_call0.v3 Host.divf,
    TRef.unary main_call0.v3 main_call0.v4 (broadcastInDim S2x1024x1024x64 ![0, 1, 2, 3] bcast_S2x1024x1x64_S2x1024x1024x64_0_1_2_3),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x1024x1024x64_S2x1024x64_d2 h_S_),
    TRef.unary main_call0.v9 main_call0.v10 (broadcastInDim S2x1024x1x64 ![0, 1, 3] bcast_S2x1024x64_S2x1024x1x64_0_1_3),
    TRef.unary main_call0.v8 main_call0.v11 (broadcastInDim S2x1024x1x64 ![] bcast_S_S2x1024x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x1024x1x64 ![] bcast_S_S2x1024x1x64),
    TRef.ternary main_call0.v13 main_call0.v12 main_call0.call0.v1 main_call0.call0.v2 (fun p a b => select (broadcastInDim S2x1024x1x64 ![] bcast_S_S2x1024x1x64 p) a b),
    nullary main_cst (constant S_ .f32 0x3727C5AC#32),
    unary main_cst main_v6 (broadcastInDim S2x1024x1x64 ![] bcast_S_S2x1024x1x64 : (⟨S_, .f32⟩ : BufTy).Contents (Elt F) → (⟨S2x1024x1x64, .f32⟩ : BufTy).Contents (Elt F)),
    binary main_v5 main_v6 main_v7 (addf : (⟨S2x1024x1x64, .f32⟩ : BufTy).Contents (Elt F) → (⟨S2x1024x1x64, .f32⟩ : BufTy).Contents (Elt F) → (⟨S2x1024x1x64, .f32⟩ : BufTy).Contents (Elt F)),
    unary main_v7 main_v8 (Host.rsqrt : (⟨S2x1024x1x64, .f32⟩ : BufTy).Contents (Elt F) → (⟨S2x1024x1x64, .f32⟩ : BufTy).Contents (Elt F)),
    unary main_v8 main_v9 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)),
    binary main_v4 main_v9 main_v10 (mulf : (⟨S2x1024x1024x64, .f32⟩ : BufTy).Contents (Elt F) → (⟨S2x1024x1024x64, .f32⟩ : BufTy).Contents (Elt F) → (⟨S2x1024x1024x64, .f32⟩ : BufTy).Contents (Elt F)),
    unary main_arg0 main_v11 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    unary main_v11 main_v12 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)),
    binary main_v10 main_v12 main_v13 ((fun a b => concatenate S2x1024x1024x128 3 [⟨S2x1024x1024x64, a⟩, ⟨S2x1024x1024x64, b⟩] concatenates_S2x1024x1024x64_S2x1024x1024x64_S2x1024x1024x128_d3) : (⟨S2x1024x1024x64, .f32⟩ : BufTy).Contents (Elt F) → (⟨S2x1024x1024x64, .f32⟩ : BufTy).Contents (Elt F) → (⟨S2x1024x1024x128, .f32⟩ : BufTy).Contents (Elt F)),
    unary main_arg1 main_v14 (broadcastInDim S2x1024x1024x128 ![0, 1, 2, 3] bcast_S1x1x1x128_S2x1024x1024x128_0_1_2_3 : (⟨S1x1x1x128, .f32⟩ : BufTy).Contents (Elt F) → (⟨S2x1024x1024x128, .f32⟩ : BufTy).Contents (Elt F)),
    binary main_v13 main_v14 main_v15 (mulf : (⟨S2x1024x1024x128, .f32⟩ : BufTy).Contents (Elt F) → (⟨S2x1024x1024x128, .f32⟩ : BufTy).Contents (Elt F) → (⟨S2x1024x1024x128, .f32⟩ : BufTy).Contents (Elt F)),
    unary main_arg2 main_v16 (broadcastInDim S2x1024x1024x128 ![0, 1, 2, 3] bcast_S1x1x1x128_S2x1024x1024x128_0_1_2_3 : (⟨S1x1x1x128, .f32⟩ : BufTy).Contents (Elt F) → (⟨S2x1024x1024x128, .f32⟩ : BufTy).Contents (Elt F)),
    binary main_v15 main_v16 main_v17 (addf : (⟨S2x1024x1024x128, .f32⟩ : BufTy).Contents (Elt F) → (⟨S2x1024x1024x128, .f32⟩ : BufTy).Contents (Elt F) → (⟨S2x1024x1024x128, .f32⟩ : BufTy).Contents (Elt F)),
    nullary main_cst_0 (constant S_ .f32 0xFF800000#32),
    binary main_v17 main_cst_0 main_v18 ((fun x v => Host.reduce FloatOps.maximumf x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)),
    nullary main_cst_1 (constant S_ .f32 0xFF800000#32),
    unary main_cst_1 main_v19 (broadcastInDim S2x1024x128 ![] bcast_S_S2x1024x128 : (⟨S_, .f32⟩ : BufTy).Contents (Elt F) → (⟨S2x1024x128, .f32⟩ : BufTy).Contents (Elt F)),
    binary main_v19 main_v18 main_v20 (maximumf : (⟨S2x1024x128, .f32⟩ : BufTy).Contents (Elt F) → (⟨S2x1024x128, .f32⟩ : BufTy).Contents (Elt F) → (⟨S2x1024x128, .f32⟩ : BufTy).Contents (Elt F)),
    unary main_v20 main_v21 (broadcastInDim S2x1024x1x128 ![0, 1, 3] bcast_S2x1024x128_S2x1024x1x128_0_1_3 : (⟨S2x1024x128, .f32⟩ : BufTy).Contents (Elt F) → (⟨S2x1024x1x128, .f32⟩ : BufTy).Contents (Elt F)),
    unary main_v21 main_v22 (broadcastInDim S2x1024x1024x128 ![0, 1, 2, 3] bcast_S2x1024x1x128_S2x1024x1024x128_0_1_2_3 : (⟨S2x1024x1x128, .f32⟩ : BufTy).Contents (Elt F) → (⟨S2x1024x1024x128, .f32⟩ : BufTy).Contents (Elt F)),
    binary main_v17 main_v22 main_v23 (subf : (⟨S2x1024x1024x128, .f32⟩ : BufTy).Contents (Elt F) → (⟨S2x1024x1024x128, .f32⟩ : BufTy).Contents (Elt F) → (⟨S2x1024x1024x128, .f32⟩ : BufTy).Contents (Elt F)),
    unary main_v23 main_v24 (Host.exp : (⟨S2x1024x1024x128, .f32⟩ : BufTy).Contents (Elt F) → (⟨S2x1024x1024x128, .f32⟩ : BufTy).Contents (Elt F)),
    nullary main_cst_2 (constant S_ .f32 0x00000000#32),
    binary main_v24 main_cst_2 main_v25 ((fun x v => Host.reduceAdd x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)),
    unary main_v25 main_v26 (broadcastInDim S2x1024x1x128 ![0, 1, 3] bcast_S2x1024x128_S2x1024x1x128_0_1_3 : (⟨S2x1024x128, .f32⟩ : BufTy).Contents (Elt F) → (⟨S2x1024x1x128, .f32⟩ : BufTy).Contents (Elt F)),
    unary main_v26 main_v27 (broadcastInDim S2x1024x1024x128 ![0, 1, 2, 3] bcast_S2x1024x1x128_S2x1024x1024x128_0_1_2_3 : (⟨S2x1024x1x128, .f32⟩ : BufTy).Contents (Elt F) → (⟨S2x1024x1024x128, .f32⟩ : BufTy).Contents (Elt F)),
    binary main_v24 main_v27 main_v28 (Host.divf : (⟨S2x1024x1024x128, .f32⟩ : BufTy).Contents (Elt F) → (⟨S2x1024x1024x128, .f32⟩ : BufTy).Contents (Elt F) → (⟨S2x1024x1024x128, .f32⟩ : BufTy).Contents (Elt F)),
    binary main_v28 main_v17 main_v29 (mulf : (⟨S2x1024x1024x128, .f32⟩ : BufTy).Contents (Elt F) → (⟨S2x1024x1024x128, .f32⟩ : BufTy).Contents (Elt F) → (⟨S2x1024x1024x128, .f32⟩ : BufTy).Contents (Elt F)),
    nullary main_cst_3 (constant S_ .f32 0x00000000#32),
    binary main_v29 main_cst_3 main_v30 ((fun x v => Host.reduceAdd x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)),
    binary main_v30 main_arg3 main_v31 ((fun l r => Host.dotGeneral dot_S2x1024x128_S64x128_S2x1024x64_2_1_01_0_n_n none l r) : (⟨S2x1024x128, .f32⟩ : BufTy).Contents (Elt F) → (⟨S64x128, .f32⟩ : BufTy).Contents (Elt F) → (⟨S2x1024x64, .f32⟩ : BufTy).Contents (Elt F)),
    TRef.nullary main_call1.cst (constant S_ .f32 0x00000000#32),
    TRef.unary main_call1.cst main_call1.v0 (broadcastInDim S2x1024x64 ![] bcast_S_S2x1024x64),
    TRef.binary (.of main_v31) main_call1.v0 main_call1.v1 maximumf ]

-- sixty-three binds re-associated: the rewrite under the chain recurses once per statement
set_option maxRecDepth 1024 in
/-- @main is that straight line: the functions' definitions unfolded at their calls and the records at their
    fields, both sides are one chain of `hlo` steps once sequencing is reassociated. -/
theorem main_eq (c : Dev nD) : main (F := F) c = seq ops := by
  simp only [main, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., binary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., nullary_bufs_sub .., binary_bufs_sub ..,
    binary_bufs_sub ..,
    nullary_bufs_sub .., unary_bufs_sub .., binary_bufs_sub ..⟩

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.RefRunStages.lean ====
/-
  The line of 63 operations cut at the stages of the composed term: the differences (6 operations), their variance
  (23), the scaling and the row's own entries (8), the concatenation with gains and shifts (5), the softmax-weighted
  sum (17), the product with W and the rectifier (4). For each stage and ANY contents before it: what its result
  buffer holds after it, as the stage's term of the contents of the buffers it reads, and that it leaves alone the
  buffers a later stage still reads. A stage's result is computed by rewriting each operation's result at its own
  buffer, shared subterms once; inside an outlined function a value written through a typed reference and read
  back through it is the value, and at the buffers the function shares with its caller the transport is the
  identity, stated at a variable. What is then compared has no transport in it. The whole line's result is read
  off by rewriting (RefRunOut).
-/
import proofs.«142952_j53334903882146_2_alg».proof.Proof.RefRunOps
import proofs.«142952_j53334903882146_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

open Cert.Lib.TypedRef

/-- The fold over two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1–6: x[b,j,c] and x[b,i,c] spread over [2,1024,1024,64], their difference, the integer zero. -/
def opsD : List (HloOp τ sig (Elt F)) :=
  [ unary main_arg0 main_v0 (broadcastInDim S2x1x1024x64 ![0, 2, 3] bcast_S2x1024x64_S2x1x1024x64_0_2_3 : (⟨S2x1024x64, .f32⟩ : BufTy).Contents (Elt F) → (⟨S2x1x1024x64, .f32⟩ : BufTy).Contents (Elt F)),
    unary main_arg0 main_v1 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    unary main_v0 main_v2 (broadcastInDim S2x1024x1024x64 ![0, 1, 2, 3] bcast_S2x1x1024x64_S2x1024x1024x64_0_1_2_3 : (⟨S2x1x1024x64, .f32⟩ : BufTy).Contents (Elt F) → (⟨S2x1024x1024x64, .f32⟩ : BufTy).Contents (Elt F)),
    unary main_v1 main_v3 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)),
    binary main_v2 main_v3 main_v4 (subf : (⟨S2x1024x1024x64, .f32⟩ : BufTy).Contents (Elt F) → (⟨S2x1024x1024x64, .f32⟩ : BufTy).Contents (Elt F) → (⟨S2x1024x1024x64, .f32⟩ : BufTy).Contents (Elt F)),
    nullary main_c (constantI S_ 32 0#32) ]

/-- Operations 7–29: the variance of the differences along axis 2 over the call's buffers, the guard's three last. -/
def opsV : List (HloOp τ sig (Elt F)) :=
  [ TRef.nullary main_call0.cst (constant S_ .f32 0x00000000#32),
    TRef.binary (.of main_v4) main_call0.cst main_call0.v0 (fun x v => Host.reduceAdd x v reducesTo_S2x1024x1024x64_S2x1024x64_d2 h_S_),
    TRef.unary main_call0.v0 main_call0.v1 (broadcastInDim S2x1024x1x64 ![0, 1, 3] bcast_S2x1024x64_S2x1024x1x64_0_1_3),
    TRef.nullary main_call0.cst_0 (constant S_ .f32 0x44800000#32),
    TRef.unary main_call0.cst_0 main_call0.v2 (broadcastInDim S2x1024x1x64 ![] bcast_S_S2x1024x1x64),
    TRef.binary main_call0.v1 main_call0.v2 main_call0.v3 Host.divf,
    TRef.unary main_call0.v3 main_call0.v4 (broadcastInDim S2x1024x1024x64 ![0, 1, 2, 3] bcast_S2x1024x1x64_S2x1024x1024x64_0_1_2_3),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x1024x1024x64_S2x1024x64_d2 h_S_),
    TRef.unary main_call0.v9 main_call0.v10 (broadcastInDim S2x1024x1x64 ![0, 1, 3] bcast_S2x1024x64_S2x1024x1x64_0_1_3),
    TRef.unary main_call0.v8 main_call0.v11 (broadcastInDim S2x1024x1x64 ![] bcast_S_S2x1024x1x64),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x1024x1x64 ![] bcast_S_S2x1024x1x64),
    TRef.ternary main_call0.v13 main_call0.v12 main_call0.call0.v1 main_call0.call0.v2 (fun p a b => select (broadcastInDim S2x1024x1x64 ![] bcast_S_S2x1024x1x64 p) a b) ]

/-- Operations 30–37: the differences scaled by 1/√(var + ε); the row's own entries spread over the neighbours. -/
def opsL1 : List (HloOp τ sig (Elt F)) :=
  [ nullary main_cst (constant S_ .f32 0x3727C5AC#32),
    unary main_cst main_v6 (broadcastInDim S2x1024x1x64 ![] bcast_S_S2x1024x1x64 : (⟨S_, .f32⟩ : BufTy).Contents (Elt F) → (⟨S2x1024x1x64, .f32⟩ : BufTy).Contents (Elt F)),
    binary main_v5 main_v6 main_v7 (addf : (⟨S2x1024x1x64, .f32⟩ : BufTy).Contents (Elt F) → (⟨S2x1024x1x64, .f32⟩ : BufTy).Contents (Elt F) → (⟨S2x1024x1x64, .f32⟩ : BufTy).Contents (Elt F)),
    unary main_v7 main_v8 (Host.rsqrt : (⟨S2x1024x1x64, .f32⟩ : BufTy).Contents (Elt F) → (⟨S2x1024x1x64, .f32⟩ : BufTy).Contents (Elt F)),
    unary main_v8 main_v9 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)),
    binary main_v4 main_v9 main_v10 (mulf : (⟨S2x1024x1024x64, .f32⟩ : BufTy).Contents (Elt F) → (⟨S2x1024x1024x64, .f32⟩ : BufTy).Contents (Elt F) → (⟨S2x1024x1024x64, .f32⟩ : BufTy).Contents (Elt F)),
    unary main_arg0 main_v11 (broadcastInDim S2x1024x1x64 ![0, 1, 3] bcast_S2x1024x64_S2x1024x1x64_0_1_3 : (⟨S2x1024x64, .f32⟩ : BufTy).Contents (Elt F) → (⟨S2x1024x1x64, .f32⟩ : BufTy).Contents (Elt F)),
    unary main_v11 main_v12 (broadcastInDim S2x1024x1024x64 ![0, 1, 2, 3] bcast_S2x1024x1x64_S2x1024x1024x64_0_1_2_3 : (⟨S2x1024x1x64, .f32⟩ : BufTy).Contents (Elt F) → (⟨S2x1024x1024x64, .f32⟩ : BufTy).Contents (Elt F)) ]

/-- Operations 38–42: the two set beside each other along the last axis, times the gains, plus the shifts. -/
def opsL2 : List (HloOp τ sig (Elt F)) :=
  [ binary main_v10 main_v12 main_v13 ((fun a b => concatenate S2x1024x1024x128 3 [⟨S2x1024x1024x64, a⟩, ⟨S2x1024x1024x64, b⟩] concatenates_S2x1024x1024x64_S2x1024x1024x64_S2x1024x1024x128_d3) : (⟨S2x1024x1024x64, .f32⟩ : BufTy).Contents (Elt F) → (⟨S2x1024x1024x64, .f32⟩ : BufTy).Contents (Elt F) → (⟨S2x1024x1024x128, .f32⟩ : BufTy).Contents (Elt F)),
    unary main_arg1 main_v14 (broadcastInDim S2x1024x1024x128 ![0, 1, 2, 3] bcast_S1x1x1x128_S2x1024x1024x128_0_1_2_3 : (⟨S1x1x1x128, .f32⟩ : BufTy).Contents (Elt F) → (⟨S2x1024x1024x128, .f32⟩ : BufTy).Contents (Elt F)),
    binary main_v13 main_v14 main_v15 (mulf : (⟨S2x1024x1024x128, .f32⟩ : BufTy).Contents (Elt F) → (⟨S2x1024x1024x128, .f32⟩ : BufTy).Contents (Elt F) → (⟨S2x1024x1024x128, .f32⟩ : BufTy).Contents (Elt F)),
    unary main_arg2 main_v16 (broadcastInDim S2x1024x1024x128 ![0, 1, 2, 3] bcast_S1x1x1x128_S2x1024x1024x128_0_1_2_3 : (⟨S1x1x1x128, .f32⟩ : BufTy).Contents (Elt F) → (⟨S2x1024x1024x128, .f32⟩ : BufTy).Contents (Elt F)),
    binary main_v15 main_v16 main_v17 (addf : (⟨S2x1024x1024x128, .f32⟩ : BufTy).Contents (Elt F) → (⟨S2x1024x1024x128, .f32⟩ : BufTy).Contents (Elt F) → (⟨S2x1024x1024x128, .f32⟩ : BufTy).Contents (Elt F)) ]

/-- Operations 43–59: the maximum along axis 2, the exponentials, their sum, the quotients times the logits, summed. -/
def opsS : List (HloOp τ sig (Elt F)) :=
  [ nullary main_cst_0 (constant S_ .f32 0xFF800000#32),
    binary main_v17 main_cst_0 main_v18 ((fun x v => Host.reduce FloatOps.maximumf x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)),
    nullary main_cst_1 (constant S_ .f32 0xFF800000#32),
    unary main_cst_1 main_v19 (broadcastInDim S2x1024x128 ![] bcast_S_S2x1024x128 : (⟨S_, .f32⟩ : BufTy).Contents (Elt F) → (⟨S2x1024x128, .f32⟩ : BufTy).Contents (Elt F)),
    binary main_v19 main_v18 main_v20 (maximumf : (⟨S2x1024x128, .f32⟩ : BufTy).Contents (Elt F) → (⟨S2x1024x128, .f32⟩ : BufTy).Contents (Elt F) → (⟨S2x1024x128, .f32⟩ : BufTy).Contents (Elt F)),
    unary main_v20 main_v21 (broadcastInDim S2x1024x1x128 ![0, 1, 3] bcast_S2x1024x128_S2x1024x1x128_0_1_3 : (⟨S2x1024x128, .f32⟩ : BufTy).Contents (Elt F) → (⟨S2x1024x1x128, .f32⟩ : BufTy).Contents (Elt F)),
    unary main_v21 main_v22 (broadcastInDim S2x1024x1024x128 ![0, 1, 2, 3] bcast_S2x1024x1x128_S2x1024x1024x128_0_1_2_3 : (⟨S2x1024x1x128, .f32⟩ : BufTy).Contents (Elt F) → (⟨S2x1024x1024x128, .f32⟩ : BufTy).Contents (Elt F)),
    binary main_v17 main_v22 main_v23 (subf : (⟨S2x1024x1024x128, .f32⟩ : BufTy).Contents (Elt F) → (⟨S2x1024x1024x128, .f32⟩ : BufTy).Contents (Elt F) → (⟨S2x1024x1024x128, .f32⟩ : BufTy).Contents (Elt F)),
    unary main_v23 main_v24 (Host.exp : (⟨S2x1024x1024x128, .f32⟩ : BufTy).Contents (Elt F) → (⟨S2x1024x1024x128, .f32⟩ : BufTy).Contents (Elt F)),
    nullary main_cst_2 (constant S_ .f32 0x00000000#32),
    binary main_v24 main_cst_2 main_v25 ((fun x v => Host.reduceAdd x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)),
    unary main_v25 main_v26 (broadcastInDim S2x1024x1x128 ![0, 1, 3] bcast_S2x1024x128_S2x1024x1x128_0_1_3 : (⟨S2x1024x128, .f32⟩ : BufTy).Contents (Elt F) → (⟨S2x1024x1x128, .f32⟩ : BufTy).Contents (Elt F)),
    unary main_v26 main_v27 (broadcastInDim S2x1024x1024x128 ![0, 1, 2, 3] bcast_S2x1024x1x128_S2x1024x1024x128_0_1_2_3 : (⟨S2x1024x1x128, .f32⟩ : BufTy).Contents (Elt F) → (⟨S2x1024x1024x128, .f32⟩ : BufTy).Contents (Elt F)),
    binary main_v24 main_v27 main_v28 (Host.divf : (⟨S2x1024x1024x128, .f32⟩ : BufTy).Contents (Elt F) → (⟨S2x1024x1024x128, .f32⟩ : BufTy).Contents (Elt F) → (⟨S2x1024x1024x128, .f32⟩ : BufTy).Contents (Elt F)),
    binary main_v28 main_v17 main_v29 (mulf : (⟨S2x1024x1024x128, .f32⟩ : BufTy).Contents (Elt F) → (⟨S2x1024x1024x128, .f32⟩ : BufTy).Contents (Elt F) → (⟨S2x1024x1024x128, .f32⟩ : BufTy).Contents (Elt F)),
    nullary main_cst_3 (constant S_ .f32 0x00000000#32),
    binary main_v29 main_cst_3 main_v30 ((fun x v => Host.reduceAdd x v reducesTo_S2x1024x1024x128_S2x1024x128_d2 h_S_) : (⟨S2x1024x1024x128, .f32⟩ : BufTy).Contents (Elt F) → (⟨S_, .f32⟩ : BufTy).Contents (Elt F) → (⟨S2x1024x128, .f32⟩ : BufTy).Contents (Elt F)) ]

/-- Operations 60–63: the product with W over the 128 features, then the rectifier over the call's buffers. -/
def opsO : List (HloOp τ sig (Elt F)) :=
  [ binary main_v30 main_arg3 main_v31 ((fun l r => Host.dotGeneral dot_S2x1024x128_S64x128_S2x1024x64_2_1_01_0_n_n none l r) : (⟨S2x1024x128, .f32⟩ : BufTy).Contents (Elt F) → (⟨S64x128, .f32⟩ : BufTy).Contents (Elt F) → (⟨S2x1024x64, .f32⟩ : BufTy).Contents (Elt F)),
    TRef.nullary main_call1.cst (constant S_ .f32 0x00000000#32),
    TRef.unary main_call1.cst main_call1.v0 (broadcastInDim S2x1024x64 ![] bcast_S_S2x1024x64),
    TRef.binary (.of main_v31) main_call1.v0 main_call1.v1 maximumf ]

/-- The line is its six stages one after the other: the same 63 operations in the same order. -/
theorem ops_eq : (ops : List (HloOp τ sig (Elt F))) = opsD ++ (opsV ++ (opsL1 ++ (opsL2 ++ (opsS ++ opsO)))) := rfl

/-! ## The transports at the buffers an outlined function shares with @main

Each is the identity: the buffer's type in the signature's table computes to the stated type. Stated at a variable
for the contents and for the three facts of the typed reference. -/

theorem ofBuf_v4 (h1 h2 h3) (u : (main_v4 : Ref sig .tc).ty.Contents (Elt F)) :
    (TRef.of (T := ⟨S2x1024x1024x64, .f32⟩) main_v4 h1 h2 h3).ofBuf u = u := rfl
theorem ofBuf_c (h1 h2 h3) (u : (main_c : Ref sig .tc).ty.Contents (Elt F)) :
    (TRef.of (T := ⟨S_, .i32⟩) main_c h1 h2 h3).ofBuf u = u := rfl
theorem toBuf_v5 (h1 h2 h3) (w : (⟨S2x1024x1x64, .f32⟩ : BufTy).Contents (Elt F)) :
    (TRef.of (T := ⟨S2x1024x1x64, .f32⟩) main_v5 h1 h2 h3).toBuf w = w := rfl
theorem ofBuf_v31 (h1 h2 h3) (u : (main_v31 : Ref sig .tc).ty.Contents (Elt F)) :
    (TRef.of (T := ⟨S2x1024x64, .f32⟩) main_v31 h1 h2 h3).ofBuf u = u := rfl
theorem toBuf_v32 (h1 h2 h3) (w : (⟨S2x1024x64, .f32⟩ : BufTy).Contents (Elt F)) :
    (TRef.of (T := ⟨S2x1024x64, .f32⟩) main_v32 h1 h2 h3).toBuf w = w := rfl

/-! ## The differences -/

attribute [local irreducible] Host.reduce Host.reduceAdd concatenate broadcastInDim
  Host.divf Host.rsqrt Host.exp select subf mulf addf maximumf cmpf sitofp constant constantI in
theorem opsD_v4 (V : Valuation τ sig (Elt F)) :
    after opsD V (main_v4 : DevRef τ sig)
      = diff (V (main_arg0 : DevRef τ sig)) := by
  delta opsD
  simp (disch := decide) only [after_cons, after_nil,
    nullary_result', unary_result', binary_result', ternary_result',
    nullary_result_ne', unary_result_ne', binary_result_ne', ternary_result_ne']
  rfl

attribute [local irreducible] Host.reduce Host.reduceAdd concatenate broadcastInDim
  Host.divf Host.rsqrt Host.exp select subf mulf addf maximumf cmpf sitofp constant constantI in
theorem opsD_c (V : Valuation τ sig (Elt F)) :
    after opsD V (main_c : DevRef τ sig)
      = constantI S_ 32 0#32 := by
  delta opsD
  simp (disch := decide) only [after_cons, after_nil,
    nullary_result', unary_result', binary_result', ternary_result',
    nullary_result_ne', unary_result_ne', binary_result_ne', ternary_result_ne']

attribute [local irreducible] Host.reduce Host.reduceAdd concatenate broadcastInDim
  Host.divf Host.rsqrt Host.exp select subf mulf addf maximumf cmpf sitofp constant constantI in
theorem opsD_arg0 (V : Valuation τ sig (Elt F)) :
    after opsD V (main_arg0 : DevRef τ sig) = V (main_arg0 : DevRef τ sig) := by
  delta opsD
  simp only [after_cons, after_nil]
  rfl

attribute [local irreducible] Host.reduce Host.reduceAdd concatenate broadcastInDim
  Host.divf Host.rsqrt Host.exp select subf mulf addf maximumf cmpf sitofp constant constantI in
theorem opsD_arg1 (V : Valuation τ sig (Elt F)) :
    after opsD V (main_arg1 : DevRef τ sig) = V (main_arg1 : DevRef τ sig) := by
  delta opsD
  simp only [after_cons, after_nil]
  rfl

attribute [local irreducible] Host.reduce Host.reduceAdd concatenate broadcastInDim
  Host.divf Host.rsqrt Host.exp select subf mulf addf maximumf cmpf sitofp constant constantI in
theorem opsD_arg2 (V : Valuation τ sig (Elt F)) :
    after opsD V (main_arg2 : DevRef τ sig) = V (main_arg2 : DevRef τ sig) := by
  delta opsD
  simp only [after_cons, after_nil]
  rfl

attribute [local irreducible] Host.reduce Host.reduceAdd concatenate broadcastInDim
  Host.divf Host.rsqrt Host.exp select subf mulf addf maximumf cmpf sitofp constant constantI in
theorem opsD_arg3 (V : Valuation τ sig (Elt F)) :
    after opsD V (main_arg3 : DevRef τ sig) = V (main_arg3 : DevRef τ sig) := by
  delta opsD
  simp only [after_cons, after_nil]
  rfl

/-! ## The variance -/

set_option maxRecDepth 8192 in
set_option maxHeartbeats 1000000 in
attribute [local irreducible] Host.reduce Host.reduceAdd concatenate broadcastInDim
  Host.divf Host.rsqrt Host.exp select subf mulf addf maximumf cmpf sitofp constant constantI in
theorem opsV_v5 (V : Valuation τ sig (Elt F)) :
    after opsV V (main_v5 : DevRef τ sig)
      = varOf (V (main_v4 : DevRef τ sig)) (V (main_c : DevRef τ sig)) := by
  delta opsV
  simp (disch := decide) only [after_cons, after_nil,
    nullary_result', unary_result', binary_result', ternary_result',
    nullary_result_ne', unary_result_ne', binary_result_ne', ternary_result_ne',
    ofBuf_toBuf, ofBuf_v4, ofBuf_c, toBuf_v5]
  rfl

attribute [local irreducible] Host.reduce Host.reduceAdd concatenate broadcastInDim
  Host.divf Host.rsqrt Host.exp select subf mulf addf maximumf cmpf sitofp constant constantI in
theorem opsV_v4 (V : Valuation τ sig (Elt F)) :
    after opsV V (main_v4 : DevRef τ sig) = V (main_v4 : DevRef τ sig) := by
  delta opsV
  simp only [after_cons, after_nil]
  rfl

attribute [local irreducible] Host.reduce Host.reduceAdd concatenate broadcastInDim
  Host.divf Host.rsqrt Host.exp select subf mulf addf maximumf cmpf sitofp constant constantI in
theorem opsV_arg0 (V : Valuation τ sig (Elt F)) :
    after opsV V (main_arg0 : DevRef τ sig) = V (main_arg0 : DevRef τ sig) := by
  delta opsV
  simp only [after_cons, after_nil]
  rfl

attribute [local irreducible] Host.reduce Host.reduceAdd concatenate broadcastInDim
  Host.divf Host.rsqrt Host.exp select subf mulf addf maximumf cmpf sitofp constant constantI in
theorem opsV_arg1 (V : Valuation τ sig (Elt F)) :
    after opsV V (main_arg1 : DevRef τ sig) = V (main_arg1 : DevRef τ sig) := by
  delta opsV
  simp only [after_cons, after_nil]
  rfl

attribute [local irreducible] Host.reduce Host.reduceAdd concatenate broadcastInDim
  Host.divf Host.rsqrt Host.exp select subf mulf addf maximumf cmpf sitofp constant constantI in
theorem opsV_arg2 (V : Valuation τ sig (Elt F)) :
    after opsV V (main_arg2 : DevRef τ sig) = V (main_arg2 : DevRef τ sig) := by
  delta opsV
  simp only [after_cons, after_nil]
  rfl

attribute [local irreducible] Host.reduce Host.reduceAdd concatenate broadcastInDim
  Host.divf Host.rsqrt Host.exp select subf mulf addf maximumf cmpf sitofp constant constantI in
theorem opsV_arg3 (V : Valuation τ sig (Elt F)) :
    after opsV V (main_arg3 : DevRef τ sig) = V (main_arg3 : DevRef τ sig) := by
  delta opsV
  simp only [after_cons, after_nil]
  rfl

/-! ## The logits -/

/-- The differences times 1/√(var + ε), the variance kept as a unit axis 2 and spread back. -/
def scaled (d : FVec F S2x1024x1024x64 .f32) (v : FVec F S2x1024x1x64 .f32) : FVec F S2x1024x1024x64 .f32 :=
  mulf d
    (broadcastInDim S2x1024x1024x64 ![0, 1, 2, 3] bcast_S2x1024x1x64_S2x1024x1024x64_0_1_2_3
      (Host.rsqrt
        (addf v
          (broadcastInDim S2x1024x1x64 ![] bcast_S_S2x1024x1x64 (constant S_ .f32 0x3727C5AC#32)))))

/-- x[b,i,c] at (b,i,j,c): the row's own entries over its 1024 neighbours. -/
def own (x : FVec F S2x1024x64 .f32) : FVec F S2x1024x1024x64 .f32 :=
  broadcastInDim S2x1024x1024x64 ![0, 1, 2, 3] bcast_S2x1024x1x64_S2x1024x1024x64_0_1_2_3
    (broadcastInDim S2x1024x1x64 ![0, 1, 3] bcast_S2x1024x64_S2x1024x1x64_0_1_3 x)

/-- Two [2,1024,1024,64] arrays set beside each other along the last axis, times the gains, plus the shifts. -/
def affine (p q : FVec F S2x1024x1024x64 .f32) (γ β : FVec F S1x1x1x128 .f32) : FVec F S2x1024x1024x128 .f32 :=
  addf
    (mulf
      (concatenate S2x1024x1024x128 3 [⟨S2x1024x1024x64, p⟩, ⟨S2x1024x1024x64, q⟩]
        concatenates_S2x1024x1024x64_S2x1024x1024x64_S2x1024x1024x128_d3)
      (broadcastInDim S2x1024x1024x128 ![0, 1, 2, 3] bcast_S1x1x1x128_S2x1024x1024x128_0_1_2_3 γ))
    (broadcastInDim S2x1024x1024x128 ![0, 1, 2, 3] bcast_S1x1x1x128_S2x1024x1024x128_0_1_2_3 β)

/-- `logits` is these three composed at the differences and their variance with ddof 0: the same term. -/
theorem logits_eq (x : FVec F S2x1024x64 .f32) (γ β : FVec F S1x1x1x128 .f32) :
    logits x γ β = affine (scaled (diff x) (varOf (diff x) (constantI S_ 32 0#32))) (own x) γ β := rfl

attribute [local irreducible] Host.reduce Host.reduceAdd concatenate broadcastInDim
  Host.divf Host.rsqrt Host.exp select subf mulf addf maximumf cmpf sitofp constant constantI in
theorem opsL1_v10 (V : Valuation τ sig (Elt F)) :
    after opsL1 V (main_v10 : DevRef τ sig)
      = scaled (V (main_v4 : DevRef τ sig)) (V (main_v5 : DevRef τ sig)) := by
  delta opsL1
  simp (disch := decide) only [after_cons, after_nil,
    nullary_result', unary_result', binary_result', ternary_result',
    nullary_result_ne', unary_result_ne', binary_result_ne', ternary_result_ne']
  rfl

attribute [local irreducible] Host.reduce Host.reduceAdd concatenate broadcastInDim
  Host.divf Host.rsqrt Host.exp select subf mulf addf maximumf cmpf sitofp constant constantI in
theorem opsL1_v12 (V : Valuation τ sig (Elt F)) :
    after opsL1 V (main_v12 : DevRef τ sig)
      = own (V (main_arg0 : DevRef τ sig)) := by
  delta opsL1
  simp (disch := decide) only [after_cons, after_nil,
    nullary_result', unary_result', binary_result', ternary_result',
    nullary_result_ne', unary_result_ne', binary_result_ne', ternary_result_ne']
  rfl

attribute [local irreducible] Host.reduce Host.reduceAdd concatenate broadcastInDim
  Host.divf Host.rsqrt Host.exp select subf mulf addf maximumf cmpf sitofp constant constantI in
theorem opsL1_arg1 (V : Valuation τ sig (Elt F)) :
    after opsL1 V (main_arg1 : DevRef τ sig) = V (main_arg1 : DevRef τ sig) := by
  delta opsL1
  simp only [after_cons, after_nil]
  rfl

attribute [local irreducible] Host.reduce Host.reduceAdd concatenate broadcastInDim
  Host.divf Host.rsqrt Host.exp select subf mulf addf maximumf cmpf sitofp constant constantI in
theorem opsL1_arg2 (V : Valuation τ sig (Elt F)) :
    after opsL1 V (main_arg2 : DevRef τ sig) = V (main_arg2 : DevRef τ sig) := by
  delta opsL1
  simp only [after_cons, after_nil]
  rfl

attribute [local irreducible] Host.reduce Host.reduceAdd concatenate broadcastInDim
  Host.divf Host.rsqrt Host.exp select subf mulf addf maximumf cmpf sitofp constant constantI in
theorem opsL1_arg3 (V : Valuation τ sig (Elt F)) :
    after opsL1 V (main_arg3 : DevRef τ sig) = V (main_arg3 : DevRef τ sig) := by
  delta opsL1
  simp only [after_cons, after_nil]
  rfl

attribute [local irreducible] Host.reduce Host.reduceAdd concatenate broadcastInDim
  Host.divf Host.rsqrt Host.exp select subf mulf addf maximumf cmpf sitofp constant constantI in
theorem opsL2_v17 (V : Valuation τ sig (Elt F)) :
    after opsL2 V (main_v17 : DevRef τ sig)
      = affine (V (main_v10 : DevRef τ sig)) (V (main_v12 : DevRef τ sig)) (V (main_arg1 : DevRef τ sig)) (V (main_arg2 : DevRef τ sig)) := by
  delta opsL2
  simp (disch := decide) only [after_cons, after_nil,
    nullary_result', unary_result', binary_result', ternary_result',
    nullary_result_ne', unary_result_ne', binary_result_ne', ternary_result_ne']
  rfl

attribute [local irreducible] Host.reduce Host.reduceAdd concatenate broadcastInDim
  Host.divf Host.rsqrt Host.exp select subf mulf addf maximumf cmpf sitofp constant constantI in
theorem opsL2_arg3 (V : Valuation τ sig (Elt F)) :
    after opsL2 V (main_arg3 : DevRef τ sig) = V (main_arg3 : DevRef τ sig) := by
  delta opsL2
  simp only [after_cons, after_nil]
  rfl

/-! ## The softmax-weighted sum -/

set_option maxRecDepth 8192 in
set_option maxHeartbeats 1000000 in
attribute [local irreducible] Host.reduce Host.reduceAdd concatenate broadcastInDim
  Host.divf Host.rsqrt Host.exp select subf mulf addf maximumf cmpf sitofp constant constantI in
theorem opsS_v30 (V : Valuation τ sig (Elt F)) :
    after opsS V (main_v30 : DevRef τ sig)
      = wsumOf (V (main_v17 : DevRef τ sig)) := by
  delta opsS
  simp (disch := decide) only [after_cons, after_nil,
    nullary_result', unary_result', binary_result', ternary_result',
    nullary_result_ne', unary_result_ne', binary_result_ne', ternary_result_ne']
  rfl

attribute [local irreducible] Host.reduce Host.reduceAdd concatenate broadcastInDim
  Host.divf Host.rsqrt Host.exp select subf mulf addf maximumf cmpf sitofp constant constantI in
theorem opsS_arg3 (V : Valuation τ sig (Elt F)) :
    after opsS V (main_arg3 : DevRef τ sig) = V (main_arg3 : DevRef τ sig) := by
  delta opsS
  simp only [after_cons, after_nil]
  rfl

/-! ## The product with W, rectified -/

attribute [local irreducible] Host.reduce Host.reduceAdd concatenate broadcastInDim
  Host.divf Host.rsqrt Host.exp select subf mulf addf maximumf cmpf sitofp constant constantI in
theorem opsO_v32 (V : Valuation τ sig (Elt F)) :
    after opsO V (main_v32 : DevRef τ sig)
      = maximumf
          (Host.dotGeneral dot_S2x1024x128_S64x128_S2x1024x64_2_1_01_0_n_n none (V (main_v30 : DevRef τ sig))
            (V (main_arg3 : DevRef τ sig)))
          (broadcastInDim S2x1024x64 ![] bcast_S_S2x1024x64 (constant S_ .f32 0x00000000#32)) := by
  delta opsO
  simp (disch := decide) only [after_cons, after_nil,
    nullary_result', unary_result', binary_result', ternary_result',
    nullary_result_ne', unary_result_ne', binary_result_ne', ternary_result_ne',
    ofBuf_toBuf, ofBuf_v31, toBuf_v32]
  rfl

end Cert.ReferenceIdeal.RefValue

end
-- ==== Proof.RefRunOut.lean ====
/-
  What the result buffer holds after the 63 operations, from any contents: the composed term `out` of the four
  argument arrays' contents. The line is its six stages run one after the other (RefRunStages); each stage's result
  is its term of the buffers it reads, and it leaves the buffers later stages read alone, so the result is read off by
  rewriting, the last stage first.
-/
import proofs.«142952_j53334903882146_2_alg».proof.Proof.RefRunStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd concatenate broadcastInDim
  Host.divf Host.rsqrt Host.exp select subf mulf addf maximumf cmpf sitofp constant constantI in
theorem out_eq (V : Valuation τ sig (Elt F)) :
    after ops V (main_v32 : DevRef τ sig)
      = out (V (main_arg0 : DevRef τ sig)) (V (main_arg1 : DevRef τ sig)) (V (main_arg2 : DevRef τ sig))
          (V (main_arg3 : DevRef τ sig)) := by
  rw [ops_eq, after_app, after_app, after_app, after_app, after_app,
    opsO_v32, opsS_v30, opsS_arg3, opsL2_v17, opsL2_arg3,
    opsL1_v10, opsL1_v12, opsL1_arg1, opsL1_arg2, opsL1_arg3,
    opsV_v5, opsV_v4, opsV_arg0, opsV_arg1, opsV_arg2, opsV_arg3,
    opsD_v4, opsD_c, opsD_arg0, opsD_arg1, opsD_arg2, opsD_arg3, ← logits_eq]
  rfl

end Cert.ReferenceIdeal.RefValue

end
-- ==== Proof.RefRunArgs.lean ====
/-
  The four argument buffers after the 63 operations, from any contents: what they held (no operation writes one).
-/
import proofs.«142952_j53334903882146_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd concatenate broadcastInDim in
set_option maxRecDepth 8192 in
theorem arg0_eq (V : Valuation τ sig (Elt F)) :
    after ops V (main_arg0 : DevRef τ sig) = V (main_arg0 : DevRef τ sig) := by
  simp only [after_cons, after_nil]
  rfl

attribute [local irreducible] Host.reduce Host.reduceAdd concatenate broadcastInDim in
set_option maxRecDepth 8192 in
theorem arg1_eq (V : Valuation τ sig (Elt F)) :
    after ops V (main_arg1 : DevRef τ sig) = V (main_arg1 : DevRef τ sig) := by
  simp only [after_cons, after_nil]
  rfl

attribute [local irreducible] Host.reduce Host.reduceAdd concatenate broadcastInDim in
set_option maxRecDepth 8192 in
theorem arg2_eq (V : Valuation τ sig (Elt F)) :
    after ops V (main_arg2 : DevRef τ sig) = V (main_arg2 : DevRef τ sig) := by
  simp only [after_cons, after_nil]
  rfl

attribute [local irreducible] Host.reduce Host.reduceAdd concatenate broadcastInDim in
set_option maxRecDepth 8192 in
theorem arg3_eq (V : Valuation τ sig (Elt F)) :
    after ops V (main_arg3 : DevRef τ sig) = V (main_arg3 : DevRef τ sig) := by
  simp only [after_cons, after_nil]
  rfl

end Cert.ReferenceIdeal.RefValue

end
-- ==== Proof.RefRun.lean ====
/-
  The reference program's run: every weakly fair execution of @main terminates with the result buffer at `out` of
  the four argument arrays' launch contents and the arguments unchanged. The run of the straight line of 63
  operations (RefRunOps) leaves each buffer at the fold of the operations' results; at the result buffer that fold
  is `out` (RefRunOut), at an argument's what it held (RefRunArgs).
-/
import proofs.«142952_j53334903882146_2_alg».proof.Proof.RefTerm
import Idealize.ShloMosaic.Lib.StableHlo.Run
import proofs.«142952_j53334903882146_2_alg».proof.Proof.RefRunOps
import proofs.«142952_j53334903882146_2_alg».proof.Proof.RefRunOut
import proofs.«142952_j53334903882146_2_alg».proof.Proof.RefRunArgs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates with its result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = out (m ((c.tc : Thread nD τ).loc main_arg0)) (m ((c.tc : Thread nD τ).loc main_arg1))
                (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v32).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefValue

end
-- ==== Proof.RefIdx.lean ====
/-
  The reference's layout operations and reductions read at an index given by its coordinates, at this program's shapes.

  * the keepdims broadcasts: [2,1024,C] with a unit axis inserted at position 1 or 2 reads the operand at the remaining
    coordinates; a unit axis 1 or 2 spread over 1024 reads the operand at coordinate 0 of that axis; the [1,1,1,128]
    gains and shifts spread over [2,1024,1024,128] read their last coordinate;
  * a host sum along axis 2 of a [2,1024,1024,C] array is, at (b,i,c), the initial value plus the sum over j of the
    operand at (b,i,j,c); a host reduce by a commutative associative body is the fold over those entries;
  * the concatenation of two [2,1024,1024,64] pieces along the last axis reads the first piece below 64 and the second,
    64 less, from 64 on.
-/
import proofs.«142952_j53334903882146_2_alg».proof.Proof.Gen.ReferenceIdeal
import Idealize.ShloMosaic.Lib.IdealHost
import Idealize.ShloMosaic.Lib.Pipeline.Value
import Idealize.ShloMosaic.PureOps.Reduce

noncomputable section

open scoped BigOperators

namespace Cert.ReferenceIdeal.RefIdx

open Cert.ReferenceIdeal Cert.ReferenceIdeal.Gen Idealize.ShloMosaic Idealize.ShloMosaic.ValueIdx

variable {α : Type}

/-! ## Broadcasts -/

/-- [2,1024,64] → [2,1,1024,64]: at (b,u,j,c) the operand at (b,j,c). -/
theorem bc_row64 (h : S2x1024x64.BroadcastsInDim S2x1x1024x64 (![0, 2, 3] : Fin 3 → Fin S2x1x1024x64.rank))
    (x : S2x1024x64.Idx → α) (b : Fin 2) (u : Fin 1) (j : Fin 1024) (c : Fin 64) :
    broadcastInDim S2x1x1024x64 ![0, 2, 3] h x (ix4 b u j c) = x (ix3 b j c) :=
  broadcastInDim_apply _ h x (ix4 b u j c) (ix3 b j c) fun a => by
    match a with | ⟨0, _⟩ => rfl | ⟨1, _⟩ => rfl | ⟨2, _⟩ => rfl

/-- [2,1024,64] → [2,1024,1,64]: at (b,i,u,c) the operand at (b,i,c). -/
theorem bc_keep64 (h : S2x1024x64.BroadcastsInDim S2x1024x1x64 (![0, 1, 3] : Fin 3 → Fin S2x1024x1x64.rank))
    (x : S2x1024x64.Idx → α) (b : Fin 2) (i : Fin 1024) (u : Fin 1) (c : Fin 64) :
    broadcastInDim S2x1024x1x64 ![0, 1, 3] h x (ix4 b i u c) = x (ix3 b i c) :=
  broadcastInDim_apply _ h x (ix4 b i u c) (ix3 b i c) fun a => by
    match a with | ⟨0, _⟩ => rfl | ⟨1, _⟩ => rfl | ⟨2, _⟩ => rfl

/-- [2,1024,128] → [2,1024,1,128]: at (b,i,u,k) the operand at (b,i,k). -/
theorem bc_keep128 (h : S2x1024x128.BroadcastsInDim S2x1024x1x128 (![0, 1, 3] : Fin 3 → Fin S2x1024x1x128.rank))
    (x : S2x1024x128.Idx → α) (b : Fin 2) (i : Fin 1024) (u : Fin 1) (k : Fin 128) :
    broadcastInDim S2x1024x1x128 ![0, 1, 3] h x (ix4 b i u k) = x (ix3 b i k) :=
  broadcastInDim_apply _ h x (ix4 b i u k) (ix3 b i k) fun a => by
    match a with | ⟨0, _⟩ => rfl | ⟨1, _⟩ => rfl | ⟨2, _⟩ => rfl

/-- [2,1,1024,64] → [2,1024,1024,64]: at (b,i,j,c) the operand at (b,0,j,c). -/
theorem bc_rows64 (h : S2x1x1024x64.BroadcastsInDim S2x1024x1024x64 (![0, 1, 2, 3] : Fin 4 → Fin S2x1024x1024x64.rank))
    (x : S2x1x1024x64.Idx → α) (b : Fin 2) (i j : Fin 1024) (c : Fin 64) :
    broadcastInDim S2x1024x1024x64 ![0, 1, 2, 3] h x (ix4 b i j c) = x (ix4 b (0 : Fin 1) j c) :=
  broadcastInDim_apply _ h x (ix4 b i j c) (ix4 b (0 : Fin 1) j c) fun a => by
    match a with | ⟨0, _⟩ => rfl | ⟨1, _⟩ => rfl | ⟨2, _⟩ => rfl | ⟨3, _⟩ => rfl

/-- [2,1024,1,64] → [2,1024,1024,64]: at (b,i,j,c) the operand at (b,i,0,c). -/
theorem bc_cols64 (h : S2x1024x1x64.BroadcastsInDim S2x1024x1024x64 (![0, 1, 2, 3] : Fin 4 → Fin S2x1024x1024x64.rank))
    (x : S2x1024x1x64.Idx → α) (b : Fin 2) (i j : Fin 1024) (c : Fin 64) :
    broadcastInDim S2x1024x1024x64 ![0, 1, 2, 3] h x (ix4 b i j c) = x (ix4 b i (0 : Fin 1) c) :=
  broadcastInDim_apply _ h x (ix4 b i j c) (ix4 b i (0 : Fin 1) c) fun a => by
    match a with | ⟨0, _⟩ => rfl | ⟨1, _⟩ => rfl | ⟨2, _⟩ => rfl | ⟨3, _⟩ => rfl

/-- [2,1024,1,128] → [2,1024,1024,128]: at (b,i,j,k) the operand at (b,i,0,k). -/
theorem bc_cols128 (h : S2x1024x1x128.BroadcastsInDim S2x1024x1024x128 (![0, 1, 2, 3] : Fin 4 → Fin S2x1024x1024x128.rank))
    (x : S2x1024x1x128.Idx → α) (b : Fin 2) (i j : Fin 1024) (k : Fin 128) :
    broadcastInDim S2x1024x1024x128 ![0, 1, 2, 3] h x (ix4 b i j k) = x (ix4 b i (0 : Fin 1) k) :=
  broadcastInDim_apply _ h x (ix4 b i j k) (ix4 b i (0 : Fin 1) k) fun a => by
    match a with | ⟨0, _⟩ => rfl | ⟨1, _⟩ => rfl | ⟨2, _⟩ => rfl | ⟨3, _⟩ => rfl

/-- [1,1,1,128] → [2,1024,1024,128]: at (b,i,j,k) the operand at (0,0,0,k). -/
theorem bc_feat128 (h : S1x1x1x128.BroadcastsInDim S2x1024x1024x128 (![0, 1, 2, 3] : Fin 4 → Fin S2x1024x1024x128.rank))
    (x : S1x1x1x128.Idx → α) (b : Fin 2) (i j : Fin 1024) (k : Fin 128) :
    broadcastInDim S2x1024x1024x128 ![0, 1, 2, 3] h x (ix4 b i j k) = x (ix4 (0 : Fin 1) (0 : Fin 1) (0 : Fin 1) k) :=
  broadcastInDim_apply _ h x (ix4 b i j k) (ix4 (0 : Fin 1) (0 : Fin 1) (0 : Fin 1) k) fun a => by
    match a with | ⟨0, _⟩ => rfl | ⟨1, _⟩ => rfl | ⟨2, _⟩ => rfl | ⟨3, _⟩ => rfl

/-! ## Reductions along axis 2 -/

/-- The index over (b,i,c) with j inserted on axis 2 is (b,i,j,c). -/
theorem lift_d2 {n0 n1 n2 n3 : Nat} (h : (⟨4, ![n0, n1, n2, n3]⟩ : Shape).Reduces [2] ⟨3, ![n0, n1, n3]⟩)
    (b : Fin n0) (i : Fin n1) (j : Fin n2) (c : Fin n3) : h.lift (ix3 b i c) j = ix4 b i j c :=
  funext fun ax => Fin.ext (by match ax with | ⟨0, _⟩ => rfl | ⟨1, _⟩ => rfl | ⟨2, _⟩ => rfl | ⟨3, _⟩ => rfl)

/-- The host's sum along axis 2: at (b,i,c) the initial value plus the sum over j of the operand at (b,i,j,c). -/
theorem hostReduceAdd_d2 {n0 n1 n2 n3 : Nat} {u : Shape} (x : FVec Ideal ⟨4, ![n0, n1, n2, n3]⟩ .f32) (init : u.Idx → Ideal .f32)
    (h' : (⟨4, ![n0, n1, n2, n3]⟩ : Shape).ReducesTo [2] ⟨3, ![n0, n1, n3]⟩)
    (h : (⟨4, ![n0, n1, n2, n3]⟩ : Shape).Reduces [2] ⟨3, ![n0, n1, n3]⟩) (hu : 0 < u.numel)
    (b : Fin n0) (i : Fin n1) (c : Fin n3) :
    Host.reduceAdd (F := Ideal) x init h' hu (ix3 b i c)
      = init (Shape.Idx.first hu) + ∑ j : Fin n2, x (ix4 b i j c) := by
  refine (Ideal.hostReduceAdd_single h' h x (init (Shape.Idx.first hu)) (ix3 b i c)).trans ?_
  exact congrArg (init (Shape.Idx.first hu) + ·) (Finset.sum_congr rfl fun j _ => congrArg x (lift_d2 h b i j c))

/-- The host's reduce along axis 2 by a commutative associative body: at (b,i,c) the fold of the body from the initial
    value over the entries at (b,i,·,c). -/
theorem hostReduce_d2 {n0 n1 n2 n3 : Nat} {u : Shape} (f : EReal → EReal → EReal) [Std.Commutative f] [Std.Associative f]
    (x : (⟨4, ![n0, n1, n2, n3]⟩ : Shape).Idx → EReal) (init : u.Idx → EReal)
    (h' : (⟨4, ![n0, n1, n2, n3]⟩ : Shape).ReducesTo [2] ⟨3, ![n0, n1, n3]⟩)
    (h : (⟨4, ![n0, n1, n2, n3]⟩ : Shape).Reduces [2] ⟨3, ![n0, n1, n3]⟩) (hu : 0 < u.numel)
    (b : Fin n0) (i : Fin n1) (c : Fin n3) :
    Host.reduce f x init h' hu (ix3 b i c)
      = (Finset.univ : Finset (Fin n2)).fold f (init (Shape.Idx.first hu)) (fun j => x (ix4 b i j c)) := by
  rw [Host.reduce_eq_fold_single f x init h' h hu (ix3 b i c)]
  refine congrArg (fun g => (Finset.univ : Finset (Fin n2)).fold f (init (Shape.Idx.first hu)) g) (funext fun j => ?_)
  exact congrArg x (lift_d2 h b i j c)

theorem reduces_64 : S2x1024x1024x64.Reduces [2] S2x1024x64 := by decide
theorem reduces_128 : S2x1024x1024x128.Reduces [2] S2x1024x128 := by decide

/-! ## The concatenation along the last axis -/

/-- Below 64 the concatenation reads its first piece at the same coordinates. -/
theorem concat_lo (x₁ x₂ : S2x1024x1024x64.Idx → α)
    (h : Shape.Concatenates [S2x1024x1024x64, S2x1024x1024x64] S2x1024x1024x128 3)
    (b : Fin 2) (i j : Fin 1024) (k : Fin 128) (hk : k.val < 64) :
    concatenate S2x1024x1024x128 3 [⟨S2x1024x1024x64, x₁⟩, ⟨S2x1024x1024x64, x₂⟩] h (ix4 b i j k)
      = x₁ (ix4 b i j (⟨k.val, hk⟩ : Fin 64)) :=
  concatenate_pair_apply_left 3 x₁ x₂ h (ix4 b i j k) rfl (ix4 b i j (⟨k.val, hk⟩ : Fin 64)) fun a => by
    match a with | ⟨0, _⟩ => rfl | ⟨1, _⟩ => rfl | ⟨2, _⟩ => rfl | ⟨3, _⟩ => rfl

/-- From 64 on it reads its second piece, 64 less on the last axis. -/
theorem concat_hi (x₁ x₂ : S2x1024x1024x64.Idx → α)
    (h : Shape.Concatenates [S2x1024x1024x64, S2x1024x1024x64] S2x1024x1024x128 3)
    (b : Fin 2) (i j : Fin 1024) (k : Fin 128) (hk : ¬ k.val < 64) :
    concatenate S2x1024x1024x128 3 [⟨S2x1024x1024x64, x₁⟩, ⟨S2x1024x1024x64, x₂⟩] h (ix4 b i j k)
      = x₂ (ix4 b i j (⟨k.val - 64, by omega⟩ : Fin 64)) :=
  concatenate_pair_apply_right 3 x₁ x₂ h (ix4 b i j k) rfl rfl (ix4 b i j (⟨k.val - 64, by omega⟩ : Fin 64))
    (fun a ha => by
      match a with
      | ⟨0, _⟩ => rfl
      | ⟨1, _⟩ => rfl
      | ⟨2, _⟩ => rfl
      | ⟨3, _⟩ => exact absurd rfl ha)
    (by show k.val - 64 + 64 = k.val; omega)

end Cert.ReferenceIdeal.RefIdx

end
-- ==== Proof.LibRef.lean ====
/-
  Layout operations and host reductions of rank-3, rank-4 and rank-5 arrays read at an index given by its coordinates —
  generic in the extents.

  * a host sum along the LAST axis of an [A, B, C, D] array is, at (a, b, c), the initial value plus the sum of the D
    entries x(a, b, c, ·) (hostReduceAdd_last4); along axis 2 of an [A, B, C, D, E] array it is, at (a, b, d, e), the
    initial value plus the sum of the C entries x(a, b, ·, d, e) (hostReduceAdd_axis2of5);
  * a host reduce along the last axis of an [A, B, C, D] array with a commutative associative body is the fold of the
    body from the initial value over the D entries (hostReduce_last4); over the extended reals the fold by max from the
    least element is the supremum (fold_max_bot), and the f32 word of −∞ denotes that least element (ofBits_neg_inf_f32);
  * a unit-stride slice of the last axis of a rank-4 array reads the operand shifted by the offset (slice_last4);
  * the keepdims forms [A,B,C] → [A,B,C,1] → [A,B,C,D] and [A,B,C,D] → [A,B,C,D,1] read the operand at the same
    leading coordinates (keep3_unit_apply, keep3_bcast_apply, keep4_unit_apply), and a rank-0 array broadcast to rank 3 reads
    its one entry (bcast_scalar3_apply);
  * two transposes of rank 3, by the permutations [1,0,2] and [2,0,1] (transpose102_apply, transpose201_apply).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.Ref

open Idealize.ShloMosaic Idealize.ShloMosaic.ValueIdx

variable {A B C D E : Nat}

/-- The index over (a, b, c) with d inserted on the last axis is (a, b, c, d). -/
theorem lift_last4 (h : (⟨4, ![A, B, C, D]⟩ : Shape).Reduces [3] ⟨3, ![A, B, C]⟩) (a : Fin A) (b : Fin B) (c : Fin C)
    (d : Fin D) : h.lift (ix3 a b c) d = ix4 a b c d :=
  funext fun ax => Fin.ext (by match ax with | ⟨0, _⟩ => rfl | ⟨1, _⟩ => rfl | ⟨2, _⟩ => rfl | ⟨3, _⟩ => rfl)

/-- The index over (a, b, d, e) with c inserted on axis 2 is (a, b, c, d, e). -/
theorem lift_axis2of5 (h : (⟨5, ![A, B, C, D, E]⟩ : Shape).Reduces [2] ⟨4, ![A, B, D, E]⟩) (a : Fin A) (b : Fin B)
    (c : Fin C) (d : Fin D) (e : Fin E) : h.lift (ix4 a b d e) c = ix5 a b c d e :=
  funext fun ax => Fin.ext (by
    match ax with | ⟨0, _⟩ => rfl | ⟨1, _⟩ => rfl | ⟨2, _⟩ => rfl | ⟨3, _⟩ => rfl | ⟨4, _⟩ => rfl)

/-- The host's sum along the last axis of an [A, B, C, D] array: at (a, b, c) the initial value plus the sum of the
    entries x(a, b, c, ·). -/
theorem hostReduceAdd_last4 (x : FVec Ideal ⟨4, ![A, B, C, D]⟩ .f32) (init : (⟨0, ![]⟩ : Shape).Idx → Ideal .f32)
    (h' : (⟨4, ![A, B, C, D]⟩ : Shape).ReducesTo [3] ⟨3, ![A, B, C]⟩)
    (h : (⟨4, ![A, B, C, D]⟩ : Shape).Reduces [3] ⟨3, ![A, B, C]⟩) (hu : 0 < (⟨0, ![]⟩ : Shape).numel)
    (a : Fin A) (b : Fin B) (c : Fin C) :
    Host.reduceAdd (F := Ideal) x init h' hu (ix3 a b c)
      = init (Shape.Idx.first hu) + ∑ d : Fin D, x (ix4 a b c d) := by
  refine (Ideal.hostReduceAdd_single h' h x (init (Shape.Idx.first hu)) (ix3 a b c)).trans ?_
  exact congrArg (init (Shape.Idx.first hu) + ·) (Finset.sum_congr rfl fun d _ => congrArg x (lift_last4 h a b c d))

/-- The host's sum along axis 2 of an [A, B, C, D, E] array: at (a, b, d, e) the initial value plus the sum of the
    entries x(a, b, ·, d, e). -/
theorem hostReduceAdd_axis2of5 (x : FVec Ideal ⟨5, ![A, B, C, D, E]⟩ .f32) (init : (⟨0, ![]⟩ : Shape).Idx → Ideal .f32)
    (h' : (⟨5, ![A, B, C, D, E]⟩ : Shape).ReducesTo [2] ⟨4, ![A, B, D, E]⟩)
    (h : (⟨5, ![A, B, C, D, E]⟩ : Shape).Reduces [2] ⟨4, ![A, B, D, E]⟩) (hu : 0 < (⟨0, ![]⟩ : Shape).numel)
    (a : Fin A) (b : Fin B) (d : Fin D) (e : Fin E) :
    Host.reduceAdd (F := Ideal) x init h' hu (ix4 a b d e)
      = init (Shape.Idx.first hu) + ∑ c : Fin C, x (ix5 a b c d e) := by
  refine (Ideal.hostReduceAdd_single h' h x (init (Shape.Idx.first hu)) (ix4 a b d e)).trans ?_
  exact congrArg (init (Shape.Idx.first hu) + ·)
    (Finset.sum_congr rfl fun c _ => congrArg x (lift_axis2of5 h a b c d e))

/-- The host's one-operand reduce along the last axis of an [A, B, C, D] array with a commutative associative body: at
    (a, b, c) the fold of the body from the initial value over the entries x(a, b, c, ·). -/
theorem hostReduce_last4 (f : EReal → EReal → EReal) [Std.Commutative f] [Std.Associative f]
    (h' : (⟨4, ![A, B, C, D]⟩ : Shape).ReducesTo [3] ⟨3, ![A, B, C]⟩)
    (h : (⟨4, ![A, B, C, D]⟩ : Shape).Reduces [3] ⟨3, ![A, B, C]⟩)
    (x : (⟨4, ![A, B, C, D]⟩ : Shape).Idx → EReal) (init : (⟨0, ![]⟩ : Shape).Idx → EReal)
    (hu : 0 < (⟨0, ![]⟩ : Shape).numel) (a : Fin A) (b : Fin B) (c : Fin C) :
    Host.reduce f x init h' hu (ix3 a b c)
      = (Finset.univ : Finset (Fin D)).fold f (init (Shape.Idx.first hu)) (fun d => x (ix4 a b c d)) := by
  rw [Host.reduce_eq_fold_single f x init h' h hu (ix3 a b c)]
  refine congrArg (fun g => (Finset.univ : Finset (Fin D)).fold f (init (Shape.Idx.first hu)) g) (funext fun d => ?_)
  exact congrArg x (lift_last4 h a b c d)

/-- Over the extended reals the fold by max from the least element is the supremum. -/
theorem fold_max_bot {ι : Type} (s : Finset ι) (g : ι → EReal) : s.fold max ⊥ g = s.sup g := by
  classical
  induction s using Finset.induction_on with
  | empty => simp
  | insert a s ha ih => rw [Finset.fold_insert ha, Finset.sup_insert, ih]

/-- The f32 word of −∞ denotes the least extended real. -/
theorem ofBits_neg_inf_f32 : Ideal.ofBits .f32 0xFF800000#32 = ⊥ := by simp [Ideal.ofBits, Ideal.ieee]

variable {α : Type}

/-- A unit-stride slice of the last axis of a rank-4 array (zero offsets on the other axes) reads, at (a, b, c, l), the
    operand at (a, b, c, k) where k is l shifted by the last offset. -/
theorem slice_last4 {D' : Nat} (off : Fin 4 → Nat) (x : (⟨4, ![A, B, C, D]⟩ : Shape).Idx → α)
    (h : (⟨4, ![A, B, C, D]⟩ : Shape).Slices off ⟨4, ![A, B, C, D']⟩) (h0 : off 0 = 0) (h1 : off 1 = 0) (h2 : off 2 = 0)
    (a : Fin A) (b : Fin B) (c : Fin C) (l : Fin D') (k : Fin D) (hk : k.val = off 3 + l.val) :
    extractStridedSlice ⟨4, ![A, B, C, D']⟩ off x h (ix4 a b c l) = x (ix4 a b c k) :=
  extractStridedSlice_apply off x h (ix4 a b c l) (ix4 a b c k) fun ax => by
    match ax with
    | ⟨0, _⟩ => show a.val = off 0 + a.val; omega
    | ⟨1, _⟩ => show b.val = off 1 + b.val; omega
    | ⟨2, _⟩ => show c.val = off 2 + c.val; omega
    | ⟨3, _⟩ => exact hk

/-- An [A, B, C] array with a unit axis appended reads, at (a, b, c, u), the operand at (a, b, c). -/
theorem keep3_unit_apply (dims : Fin 3 → Fin 4) (hd : dims = ![0, 1, 2]) (x : (⟨3, ![A, B, C]⟩ : Shape).Idx → α)
    (h : (⟨3, ![A, B, C]⟩ : Shape).BroadcastsInDim ⟨4, ![A, B, C, 1]⟩ dims) (a : Fin A) (b : Fin B) (c : Fin C) (u : Fin 1) :
    broadcastInDim ⟨4, ![A, B, C, 1]⟩ dims h x (ix4 a b c u) = x (ix3 a b c) := by
  subst hd
  refine broadcastInDim_apply _ h x (ix4 a b c u) (ix3 a b c) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl

/-- An [A, B, C, 1] array broadcast along its unit axis to [A, B, C, D] reads, at (a, b, c, d), the operand at
    (a, b, c, 0). -/
theorem keep3_bcast_apply (dims : Fin 4 → Fin 4) (hd : dims = ![0, 1, 2, 3]) (x : (⟨4, ![A, B, C, 1]⟩ : Shape).Idx → α)
    (h : (⟨4, ![A, B, C, 1]⟩ : Shape).BroadcastsInDim ⟨4, ![A, B, C, D]⟩ dims) (a : Fin A) (b : Fin B) (c : Fin C)
    (d : Fin D) : broadcastInDim ⟨4, ![A, B, C, D]⟩ dims h x (ix4 a b c d) = x (ix4 a b c (0 : Fin 1)) := by
  subst hd
  refine broadcastInDim_apply _ h x (ix4 a b c d) (ix4 a b c (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl
  | ⟨3, _⟩ => rfl

/-- An [A, B, C, D] array with a unit axis appended reads, at (a, b, c, d, u), the operand at (a, b, c, d). -/
theorem keep4_unit_apply (dims : Fin 4 → Fin 5) (hd : dims = ![0, 1, 2, 3]) (x : (⟨4, ![A, B, C, D]⟩ : Shape).Idx → α)
    (h : (⟨4, ![A, B, C, D]⟩ : Shape).BroadcastsInDim ⟨5, ![A, B, C, D, 1]⟩ dims) (a : Fin A) (b : Fin B) (c : Fin C)
    (d : Fin D) (u : Fin 1) : broadcastInDim ⟨5, ![A, B, C, D, 1]⟩ dims h x (ix5 a b c d u) = x (ix4 a b c d) := by
  subst hd
  refine broadcastInDim_apply _ h x (ix5 a b c d u) (ix4 a b c d) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show c.val = if C = 1 then 0 else c.val
    split
    · have := c.isLt; omega
    · rfl
  | ⟨3, _⟩ =>
    show d.val = if D = 1 then 0 else d.val
    split
    · have := d.isLt; omega
    · rfl

/-- A rank-0 array broadcast to [A, B, C] reads its one entry everywhere. -/
theorem bcast_scalar3_apply (dims : Fin 0 → Fin 3) (x : (⟨0, ![]⟩ : Shape).Idx → α)
    (h : (⟨0, ![]⟩ : Shape).BroadcastsInDim ⟨3, ![A, B, C]⟩ dims) (j : (⟨3, ![A, B, C]⟩ : Shape).Idx) :
    broadcastInDim ⟨3, ![A, B, C]⟩ dims h x j = x ix0 :=
  broadcastInDim_apply dims h x j ix0 fun ax => ax.elim0

/-- The transpose of an [A, B, C] array by the permutation [1, 0, 2] reads, at (b, a, c), the operand at (a, b, c). -/
theorem transpose102_apply (x : (⟨3, ![A, B, C]⟩ : Shape).Idx → α)
    (h : (⟨3, ![A, B, C]⟩ : Shape).Transposes [1, 0, 2] ⟨3, ![B, A, C]⟩) (a : Fin A) (b : Fin B) (c : Fin C) :
    transpose ⟨3, ![B, A, C]⟩ [1, 0, 2] x h (ix3 b a c) = x (ix3 a b c) :=
  transpose_apply [1, 0, 2] x h (ix3 b a c) (ix3 a b c) fun ax => by
    match ax with | ⟨0, _⟩ => rfl | ⟨1, _⟩ => rfl | ⟨2, _⟩ => rfl

/-- The transpose of an [A, B, C] array by the permutation [2, 0, 1] reads, at (c, a, b), the operand at (a, b, c). -/
theorem transpose201_apply (x : (⟨3, ![A, B, C]⟩ : Shape).Idx → α)
    (h : (⟨3, ![A, B, C]⟩ : Shape).Transposes [2, 0, 1] ⟨3, ![C, A, B]⟩) (a : Fin A) (b : Fin B) (c : Fin C) :
    transpose ⟨3, ![C, A, B]⟩ [2, 0, 1] x h (ix3 c a b) = x (ix3 a b c) :=
  transpose_apply [2, 0, 1] x h (ix3 c a b) (ix3 a b c) fun ax => by
    match ax with | ⟨0, _⟩ => rfl | ⟨1, _⟩ => rfl | ⟨2, _⟩ => rfl

end Cert.Lib.Ref

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.RefRead.lean ====
/-
  The reference's result read at an index: at every (b, i, o) it is the plain function GR of the argument arrays'
  entries.

  Stage by stage: the differences x[b,j,c] − x[b,i,c]; a column minus its mean; the variance of a column (the divisor
  1024 − 0 is 1024, which is positive, so the guard picks the quotient); the 128 logits of every (b,i,j) — the scaled
  differences for the first 64 features, the row's own entries for the other 64; e^{L − max L}, the maximum being the
  supremum of the column since the fold starts from the least element; the softmax-weighted sum of a column; and the
  128-term product with W's rows, rectified.
-/
import proofs.«142952_j53334903882146_2_alg».proof.Proof.RefTerm
import proofs.«142952_j53334903882146_2_alg».proof.Proof.Spec
import proofs.«142952_j53334903882146_2_alg».proof.Proof.RefIdx
import proofs.«142952_j53334903882146_2_alg».proof.Proof.LibRef
import proofs.«142952_j53334903882146_2_alg».proof.Proof.LibContract

noncomputable section

open scoped BigOperators

namespace Cert.ReferenceIdeal.RefValue

open Cert.ReferenceIdeal Cert.ReferenceIdeal.Gen Idealize.ShloMosaic Idealize.ShloMosaic.ValueIdx
open Cert.ReferenceIdeal.RefIdx

/-! ## Host unary operations at an index -/

theorem hostRsqrt_apply {s : Shape} {φ : FTy} (v : FVec Ideal s φ) (i : s.Idx) :
    Host.rsqrt (F := Ideal) v i = Ideal.rsqrt (v i) := rfl

theorem hostExp_apply {s : Shape} {φ : FTy} (v : FVec Ideal s φ) (i : s.Idx) :
    Host.exp (F := Ideal) v i = Ideal.exp (v i) := rfl

/-! ## The differences -/

theorem diff_apply (x : FVec Ideal S2x1024x64 .f32) (b : Fin 2) (i j : Fin 1024) (c : Fin 64) :
    diff (F := Ideal) x (ix4 b i j c) = x (ix3 b j c) - x (ix3 b i c) := by
  unfold diff
  rw [subf_apply, bc_rows64, bc_row64, bc_cols64, bc_keep64]

/-! ## A column minus its mean -/

theorem centred_apply (d : FVec Ideal S2x1024x1024x64 .f32) (b : Fin 2) (i j : Fin 1024) (c : Fin 64) :
    centred (F := Ideal) d (ix4 b i j c)
      = d (ix4 b i j c) - Cert.Fusion.mean (fun j' => d (ix4 b i j' c)) := by
  unfold centred
  rw [subf_apply, bc_cols64, hostDivf_apply, bc_keep64, broadcastInDim_scalar_apply,
    hostReduceAdd_d2 d _ _ reduces_64 _ b i c, constant_apply, constant_apply, Ideal.ofBits_zero_f32, zero_add]
  rfl

/-! ## The divisor and the guard -/

/-- The word 0x44800000 denotes 1024. -/
theorem cN_eq : Cert.Fusion.cN = ((1024 : ℝ) : EReal) := by
  unfold Cert.Fusion.cN
  simp [Ideal.ofBits, Ideal.ieee, -EReal.coe_mul]
  norm_num

/-- 1024 − 0 = 1024. -/
theorem divisor_zero_apply (j : S_.Idx) : divisor (F := Ideal) (constantI S_ 32 0#32) j = Cert.Fusion.cN := by
  unfold divisor
  rw [subf_apply, constant_apply, sitofp_apply]
  show Cert.Fusion.cN - (((0#32 : BitVec 32).toInt : ℝ) : EReal) = _
  simp

/-- 1024 is positive: the guard is the bit 1. -/
theorem guard_one (j : S_.Idx) :
    cmpf (F := Ideal) .ogt (divisor (F := Ideal) (constantI S_ 32 0#32)) (constant S_ .f32 0x00000000#32) j = 1#1 := by
  rw [cmpf_apply, divisor_zero_apply, constant_apply, Ideal.ofBits_zero_f32]
  show Ideal.cmp .ogt Cert.Fusion.cN 0 = 1#1
  unfold Ideal.cmp
  rw [cN_eq]
  have h : (0 : EReal) < ((1024 : ℝ) : EReal) := by exact_mod_cast (by norm_num : (0 : ℝ) < 1024)
  simp [h]

/-! ## The variance of a column -/

theorem varOf_apply (d : FVec Ideal S2x1024x1024x64 .f32) (b : Fin 2) (i : Fin 1024) (u : Fin 1) (c : Fin 64) :
    varOf (F := Ideal) d (constantI S_ 32 0#32) (ix4 b i u c) = Cert.Fusion.var (fun j => d (ix4 b i j c)) := by
  unfold varOf
  rw [select_apply, broadcastInDim_scalar_apply, guard_one, select_one, hostDivf_apply, bc_keep64,
    broadcastInDim_scalar_apply, divisor_zero_apply,
    hostReduceAdd_d2 _ _ _ reduces_64 _ b i c, constant_apply, Ideal.ofBits_zero_f32, zero_add]
  simp only [mulf_apply, centred_apply]
  rfl

/-! ## The logits -/

theorem logits_apply_lo (x : FVec Ideal S2x1024x64 .f32) (γ β : FVec Ideal S1x1x1x128 .f32)
    (b : Fin 2) (i j : Fin 1024) (k : Fin 128) (hk : k.val < 64) :
    logits (F := Ideal) x γ β (ix4 b i j k)
      = Cert.Fusion.logitT (γ (ix4 0 0 0 k)) (β (ix4 0 0 0 k)) (fun j' => x (ix3 b j' (⟨k.val, hk⟩ : Fin 64))) i j := by
  unfold logits
  rw [addf_apply, mulf_apply, bc_feat128, bc_feat128, concat_lo _ _ _ b i j k hk, mulf_apply, bc_cols64,
    diff_apply, hostRsqrt_apply, addf_apply, varOf_apply, broadcastInDim_scalar_apply, constant_apply]
  simp only [diff_apply]
  rfl

theorem logits_apply_hi (x : FVec Ideal S2x1024x64 .f32) (γ β : FVec Ideal S1x1x1x128 .f32)
    (b : Fin 2) (i j : Fin 1024) (k : Fin 128) (hk : ¬ k.val < 64) :
    logits (F := Ideal) x γ β (ix4 b i j k)
      = Cert.Fusion.logitC (γ (ix4 0 0 0 k)) (β (ix4 0 0 0 k)) (x (ix3 b i (⟨k.val - 64, by omega⟩ : Fin 64))) j := by
  unfold logits
  rw [addf_apply, mulf_apply, bc_feat128, bc_feat128, concat_hi _ _ _ b i j k hk, bc_cols64, bc_keep64]
  rfl

/-! ## The softmax-weighted sum of a column -/

/-- The maximum from the least element, once more against the least element, is the column's supremum. -/
theorem top_apply (L : FVec Ideal S2x1024x1024x128 .f32) (b : Fin 2) (i : Fin 1024) (k : Fin 128) :
    maximumf (F := Ideal) (broadcastInDim S2x1024x128 ![] bcast_S_S2x1024x128 (constant S_ .f32 0xFF800000#32))
        (Host.reduce FloatOps.maximumf L (constant S_ .f32 0xFF800000#32) reducesTo_S2x1024x1024x128_S2x1024x128_d2 h_S_)
        (ix3 b i k)
      = Cert.Fusion.top (fun j => L (ix4 b i j k)) := by
  rw [maximumf_apply, broadcastInDim_scalar_apply, constant_apply, Cert.Lib.Ref.ofBits_neg_inf_f32,
    hostReduce_d2 (FloatOps.maximumf (F := Ideal) (φ := .f32)) L _ _ reduces_128 _ b i k, constant_apply, Cert.Lib.Ref.ofBits_neg_inf_f32]
  show max ⊥ ((Finset.univ : Finset (Fin 1024)).fold max ⊥ (fun j => L (ix4 b i j k))) = _
  rw [Cert.Lib.Ref.fold_max_bot, max_bot_left]
  rfl

theorem expo_apply (L : FVec Ideal S2x1024x1024x128 .f32) (b : Fin 2) (i j : Fin 1024) (k : Fin 128) :
    expo (F := Ideal) L (ix4 b i j k)
      = Ideal.exp (L (ix4 b i j k) - Cert.Fusion.top (fun j' => L (ix4 b i j' k))) := by
  unfold expo spread
  rw [hostExp_apply, subf_apply, bc_cols128, bc_keep128, top_apply]

theorem wsumOf_apply (L : FVec Ideal S2x1024x1024x128 .f32) (b : Fin 2) (i : Fin 1024) (k : Fin 128) :
    wsumOf (F := Ideal) L (ix3 b i k) = Cert.Fusion.wsum (fun j => L (ix4 b i j k)) := by
  unfold wsumOf
  rw [hostReduceAdd_d2 _ _ _ reduces_128 _ b i k, constant_apply, Ideal.ofBits_zero_f32, zero_add]
  unfold Cert.Fusion.wsum
  refine Finset.sum_congr rfl fun j _ => ?_
  rw [mulf_apply, hostDivf_apply, expo_apply]
  unfold spread
  rw [bc_cols128, bc_keep128, hostReduceAdd_d2 _ _ _ reduces_128 _ b i k, constant_apply, Ideal.ofBits_zero_f32,
    zero_add]
  simp only [expo_apply]

/-! ## The features and the result -/

theorem feat_apply (x : FVec Ideal S2x1024x64 .f32) (γ β : FVec Ideal S1x1x1x128 .f32)
    (b : Fin 2) (i : Fin 1024) (k : Fin 128) :
    wsumOf (F := Ideal) (logits (F := Ideal) x γ β) (ix3 b i k)
      = Cert.Fusion.fc (fun b i c => x (ix3 b i c)) (fun k => γ (ix4 0 0 0 k)) (fun k => β (ix4 0 0 0 k)) b i k := by
  rw [wsumOf_apply]
  unfold Cert.Fusion.fc
  split
  · next h => exact congrArg Cert.Fusion.wsum (funext fun j => logits_apply_lo x γ β b i j k h)
  · next h => exact congrArg Cert.Fusion.wsum (funext fun j => logits_apply_hi x γ β b i j k h)

theorem out_apply (x : FVec Ideal S2x1024x64 .f32) (γ β : FVec Ideal S1x1x1x128 .f32) (W : FVec Ideal S64x128 .f32)
    (b : Fin 2) (i : Fin 1024) (o : Fin 64) :
    out (F := Ideal) x γ β W (ValueIdx.ix3 b i o)
      = Cert.Fusion.GR (fun b i c => x (ValueIdx.ix3 b i c)) (fun k => γ (ValueIdx.ix4 0 0 0 k)) (fun k => β (ValueIdx.ix4 0 0 0 k))
          (fun o k => W (ValueIdx.ix2 o k)) b i o := by
  unfold out
  rw [maximumf_apply, broadcastInDim_scalar_apply, constant_apply, Ideal.ofBits_zero_f32]
  unfold Cert.Fusion.GR
  refine congrArg (fun t => max t 0) ?_
  refine (Cert.Lib.Contract.dotGeneral_single dot_S2x1024x128_S64x128_S2x1024x64_2_1_01_0_n_n none 128 rfl rfl
    (wsumOf (F := Ideal) (logits (F := Ideal) x γ β)) W (ix3 b i o) (fun k => ix3 b i k) (fun k => ix2 o k) ?_ ?_).trans ?_
  · intro k q hq
    funext a
    apply Fin.ext
    match a with
    | ⟨0, _⟩ => rfl
    | ⟨1, _⟩ => rfl
    | ⟨2, _⟩ =>
      exact (DotDims.lhsIdx_val_of_single dot_S2x1024x128_S64x128_S2x1024x64_2_1_01_0_n_n (cl := 2) rfl (ix3 b i o) q).trans hq
  · intro k q hq
    funext a
    apply Fin.ext
    match a with
    | ⟨0, _⟩ => rfl
    | ⟨1, _⟩ =>
      exact (DotDims.rhsIdx_val_of_single dot_S2x1024x128_S64x128_S2x1024x64_2_1_01_0_n_n (cr := 1) rfl (ix3 b i o) q).trans hq
  · exact Finset.sum_congr rfl fun k _ => by rw [feat_apply]

end Cert.ReferenceIdeal.RefValue

end
-- ==== Proof.ColumnReal.lean ====
/-
  The column statistics and the softmax-weighted sum over the real numbers, and their behaviour under a shift.

  For a column f of 1024 reals: the mean, the biased variance, 1/√(var + e), the largest entry, and
  Σ_j softmax(f)_j · f_j. Subtracting a constant from every entry moves the mean by that constant and leaves the variance
  alone; adding a constant s to every entry moves the largest entry by s, leaves every softmax weight alone, and, the
  weights adding to one, moves the weighted sum by s. The weighted sum of a constant column is the constant.
-/
import Idealize.ShloMosaic.PureOps.Ideal

noncomputable section

namespace Cert.Fusion

/-- Σ_j f_j · (1/1024). -/
def rmean (f : Fin 1024 → ℝ) : ℝ := (∑ j, f j) * (1 / 1024)
/-- The mean of the squared deviations from the mean. -/
def rvar (f : Fin 1024 → ℝ) : ℝ := rmean (fun j => (f j - rmean f) * (f j - rmean f))
/-- 1/√(var + e). -/
def rrstd (e : ℝ) (f : Fin 1024 → ℝ) : ℝ := (Real.sqrt (rvar f + e))⁻¹
/-- The largest entry. -/
def rtop (f : Fin 1024 → ℝ) : ℝ := Finset.univ.sup' ⟨0, Finset.mem_univ _⟩ f
/-- The sum of the exponentials e^{f_j − top}. -/
def rden (f : Fin 1024 → ℝ) : ℝ := ∑ j, Real.exp (f j - rtop f)
/-- Σ_j (e^{f_j − top} · (1/den)) · f_j. -/
def rwsum (f : Fin 1024 → ℝ) : ℝ := ∑ j, (Real.exp (f j - rtop f) * (1 / rden f)) * f j

/-! ## Mean and variance under a shift -/

theorem rmean_sub_const (f : Fin 1024 → ℝ) (c : ℝ) : rmean (fun j => f j - c) = rmean f - c := by
  unfold rmean
  rw [Finset.sum_sub_distrib, Finset.sum_const, Finset.card_univ, Fintype.card_fin, nsmul_eq_mul]
  push_cast
  ring

theorem rvar_sub_const (f : Fin 1024 → ℝ) (c : ℝ) : rvar (fun j => f j - c) = rvar f := by
  unfold rvar
  rw [rmean_sub_const]
  congr 1
  funext j
  ring

/-- A variance is a sum of squares over 1024, so it is not negative. -/
theorem rvar_nonneg (f : Fin 1024 → ℝ) : 0 ≤ rvar f := by
  unfold rvar
  show 0 ≤ (∑ j, (f j - rmean f) * (f j - rmean f)) * (1 / 1024)
  refine mul_nonneg (Finset.sum_nonneg fun j _ => mul_self_nonneg _) (by norm_num)

theorem rrstd_sub_const (e : ℝ) (f : Fin 1024 → ℝ) (c : ℝ) : rrstd e (fun j => f j - c) = rrstd e f := by
  unfold rrstd
  rw [rvar_sub_const]

/-! ## The largest entry under a shift -/

theorem le_rtop (f : Fin 1024 → ℝ) (j : Fin 1024) : f j ≤ rtop f :=
  Finset.le_sup' f (Finset.mem_univ j)

theorem rtop_attained (f : Fin 1024 → ℝ) : ∃ j, rtop f = f j := by
  obtain ⟨j, _, hj⟩ := Finset.exists_mem_eq_sup' (⟨0, Finset.mem_univ _⟩ : (Finset.univ : Finset (Fin 1024)).Nonempty) f
  exact ⟨j, hj⟩

theorem rtop_add_const (f : Fin 1024 → ℝ) (s : ℝ) : rtop (fun j => f j + s) = rtop f + s := by
  apply le_antisymm
  · exact Finset.sup'_le _ _ fun j _ => by have := le_rtop f j; linarith
  · obtain ⟨j, hj⟩ := rtop_attained f
    rw [hj]
    exact le_rtop (fun j => f j + s) j

theorem rtop_const (c : ℝ) : rtop (fun _ => c) = c := by
  obtain ⟨j, hj⟩ := rtop_attained (fun _ : Fin 1024 => c)
  exact hj

/-! ## The softmax weights -/

theorem rden_pos (f : Fin 1024 → ℝ) : 0 < rden f :=
  Finset.sum_pos (fun j _ => Real.exp_pos _) ⟨0, Finset.mem_univ _⟩

/-- The weights add to one. -/
theorem rweights_sum (f : Fin 1024 → ℝ) : ∑ j, Real.exp (f j - rtop f) * (1 / rden f) = 1 := by
  rw [← Finset.sum_mul]
  exact mul_one_div_cancel (rden_pos f).ne'

theorem rden_add_const (f : Fin 1024 → ℝ) (s : ℝ) : rden (fun j => f j + s) = rden f := by
  unfold rden
  rw [rtop_add_const]
  refine Finset.sum_congr rfl fun j _ => ?_
  congr 1
  ring

/-- Adding s to every entry adds s to the weighted sum. -/
theorem rwsum_add_const (f : Fin 1024 → ℝ) (s : ℝ) : rwsum (fun j => f j + s) = rwsum f + s := by
  unfold rwsum
  rw [rden_add_const, rtop_add_const]
  have h : ∀ j, f j + s - (rtop f + s) = f j - rtop f := fun j => by ring
  simp only [h, mul_add, Finset.sum_add_distrib]
  congr 1
  rw [← Finset.sum_mul, rweights_sum, one_mul]

/-- The weighted sum of a constant column is the constant. -/
theorem rwsum_const (c : ℝ) : rwsum (fun _ => c) = c := by
  unfold rwsum
  rw [← Finset.sum_mul, rweights_sum, one_mul]

end Cert.Fusion

end
-- ==== Proof.ColumnCoe.lean ====
/-
  On a column of real numbers the extended-real statistics are the real ones.

  The two float words denote 1024 and a positive real e. For a column F whose entries are the real numbers f_j, each of
  mean, var, rstd, top and wsum of F is the inclusion of its real counterpart at f: sums of reals are reals, division by
  the nonzero real 1024 (or by the positive denominator of the softmax) is multiplication by its reciprocal, the
  variance plus e is positive so 1/√ is the real one, and the supremum of finitely many reals is their largest.
-/
import proofs.«142952_j53334903882146_2_alg».proof.Proof.Spec
import proofs.«142952_j53334903882146_2_alg».proof.Proof.ColumnReal

noncomputable section

namespace Cert.Fusion

open Idealize.ShloMosaic

/-! ## The two words -/

/-- The word 0x44800000 denotes 1024. -/
theorem cN_eq : cN = ((1024 : ℝ) : EReal) := by
  unfold cN
  simp [Ideal.ofBits, Ideal.ieee]
  rw [← EReal.coe_mul]
  norm_num

/-- The word 0x3727C5AC denotes a positive real. -/
theorem cEps_eq : ∃ e : ℝ, 0 < e ∧ cEps = (e : EReal) := by
  refine ⟨10995116 * (2 ^ 40)⁻¹, by positivity, ?_⟩
  unfold cEps
  simp [Ideal.ofBits, Ideal.ieee]

/-! ## Finite sums -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of entries that are reals is the inclusion of the real sum. -/
theorem sum_coe {ι : Type} [Fintype ι] {F : ι → EReal} {f : ι → ℝ} (hF : ∀ j, F j = (f j : EReal)) :
    ∑ j, F j = ((∑ j, f j : ℝ) : EReal) := by
  rw [coe_sum]
  exact Finset.sum_congr rfl fun j _ => hF j

/-! ## The statistics -/

variable {F : Col} {f : Fin 1024 → ℝ}

theorem mean_coe (hF : ∀ j, F j = (f j : EReal)) : mean F = (rmean f : EReal) := by
  unfold mean rmean
  rw [cN_eq, Ideal.div_coe (by norm_num), sum_coe hF, ← EReal.coe_mul]

theorem var_coe (hF : ∀ j, F j = (f j : EReal)) : var F = (rvar f : EReal) := by
  unfold var rvar
  refine mean_coe fun j => ?_
  rw [hF j, mean_coe hF, ← EReal.coe_sub, ← EReal.coe_mul]

theorem rstd_coe {e : ℝ} (he : 0 < e) (hE : cEps = (e : EReal)) (hF : ∀ j, F j = (f j : EReal)) :
    rstd F = (rrstd e f : EReal) := by
  unfold rstd rrstd
  have hpos : 0 < rvar f + e := by have := rvar_nonneg f; linarith
  rw [var_coe hF, hE, ← EReal.coe_add, Ideal.rsqrt_coe, if_neg (not_lt.mpr hpos.le), if_neg hpos.ne']

theorem top_coe (hF : ∀ j, F j = (f j : EReal)) : top F = (rtop f : EReal) := by
  unfold top
  apply le_antisymm
  · refine Finset.sup_le fun j _ => ?_
    rw [hF j]
    exact EReal.coe_le_coe_iff.2 (le_rtop f j)
  · obtain ⟨j, hj⟩ := rtop_attained f
    rw [hj, ← hF j]
    exact Finset.le_sup (Finset.mem_univ j)

theorem wsum_coe (hF : ∀ j, F j = (f j : EReal)) : wsum F = (rwsum f : EReal) := by
  have hexp : ∀ j, Ideal.exp (F j - top F) = ((Real.exp (f j - rtop f) : ℝ) : EReal) := fun j => by
    rw [hF j, top_coe hF, ← EReal.coe_sub, Ideal.exp_coe]
  have hS : ∑ j', Ideal.exp (F j' - top F) = ((rden f : ℝ) : EReal) := sum_coe hexp
  unfold wsum
  rw [hS]
  refine sum_coe fun j => ?_
  rw [hexp j, Ideal.div_coe (rden_pos f).ne', hF j, ← EReal.coe_mul, ← EReal.coe_mul]

end Cert.Fusion

end
-- ==== Proof.Bridge.lean ====
/-
  The bridge: on real data the kernel's arrangement and the reference's compute the same function.

  First half (k < 64). With r = rstd f (the difference column f − f_i has the same variance, hence the same r) the
  reference's logit is ((f_j − f_i)·r)·γ + β = f_j·(γ·r) + (β − f_i·(γ·r)): the kernel's logit a_j = f_j·(γ·r) shifted by
  the constant s = β − f_i·(γ·r). A shift moves the weighted sum by s, so the reference's feature is
  wsum a + β − (γ·r)·f_i, the kernel's.

  Second half (k ≥ 64). The reference's logits are the constant column x·γ' + β', whose weighted sum is that constant,
  the kernel's γ'·x + β'.

  The 128-term product then splits into its two 64-term halves.
-/
import proofs.«142952_j53334903882146_2_alg».proof.Proof.Spec
import proofs.«142952_j53334903882146_2_alg».proof.Proof.ColumnCoe

noncomputable section

namespace Cert.Fusion

open Idealize.ShloMosaic

/-! ## The first half -/

/-- The weighted sum of the reference's first-half logits is the kernel's first-half feature. -/
theorem wsum_logitT {F : Col} {f : Fin 1024 → ℝ} (hF : ∀ j, F j = (f j : EReal)) (g bb : ℝ) (i : Fin 1024) :
    wsum (logitT (g : EReal) (bb : EReal) F i) = tilde (g : EReal) (bb : EReal) F i := by
  obtain ⟨e, he, hE⟩ := cEps_eq
  have hD : ∀ j, F j - F i = ((f j - f i : ℝ) : EReal) := fun j => by rw [hF j, hF i, ← EReal.coe_sub]
  have hrD : rstd (fun j' => F j' - F i) = ((rrstd e f : ℝ) : EReal) := by
    rw [rstd_coe he hE hD, rrstd_sub_const]
  have hr : rstd F = ((rrstd e f : ℝ) : EReal) := rstd_coe he hE hF
  have hL : ∀ j, logitT (g : EReal) (bb : EReal) F i j
      = ((f j * (g * rrstd e f) + (bb - f i * (g * rrstd e f)) : ℝ) : EReal) := fun j => by
    show ((F j - F i) * rstd (fun j' => F j' - F i)) * (g : EReal) + (bb : EReal) = _
    rw [hrD, hD j, ← EReal.coe_mul, ← EReal.coe_mul, ← EReal.coe_add]
    congr 1
    ring
  have hA : ∀ j, F j * gain (g : EReal) F = ((f j * (g * rrstd e f) : ℝ) : EReal) := fun j => by
    unfold gain
    rw [hr, hF j, ← EReal.coe_mul, ← EReal.coe_mul]
  rw [wsum_coe hL, rwsum_add_const]
  unfold tilde
  rw [wsum_coe hA]
  unfold gain
  rw [hr, hF i, ← EReal.coe_mul, ← EReal.coe_mul, ← EReal.coe_add, ← EReal.coe_sub]
  congr 1
  ring

/-! ## The second half -/

/-- The weighted sum of a constant column of logits is the kernel's second-half feature. -/
theorem wsum_logitC (g bb x : ℝ) :
    wsum (logitC (g : EReal) (bb : EReal) (x : EReal)) = center (g : EReal) (bb : EReal) (x : EReal) := by
  have hL : ∀ j : Fin 1024, logitC (g : EReal) (bb : EReal) (x : EReal) j = ((x * g + bb : ℝ) : EReal) := fun j => by
    show (x : EReal) * (g : EReal) + (bb : EReal) = _
    rw [← EReal.coe_mul, ← EReal.coe_add]
  rw [wsum_coe hL, rwsum_const]
  unfold center
  rw [← EReal.coe_mul, ← EReal.coe_add, mul_comm]

/-! ## The features of the reference, by halves -/

variable (X : Fin 2 → Fin 1024 → Fin 64 → EReal) (Γ B : Fin 128 → EReal)

theorem fc_lo (hX : ∀ b i c, ∃ r : ℝ, X b i c = (r : EReal)) (hΓ : ∀ k, ∃ r : ℝ, Γ k = (r : EReal))
    (hB : ∀ k, ∃ r : ℝ, B k = (r : EReal)) (b : Fin 2) (i : Fin 1024) (c : Fin 64) :
    fc X Γ B b i (lo c) = tilde (Γ (lo c)) (B (lo c)) (fun j => X b j c) i := by
  have h : (lo c).val < 64 := c.isLt
  have hc : ∀ p : (lo c).val < 64, (⟨(lo c).val, p⟩ : Fin 64) = c := fun _ => Fin.ext rfl
  unfold fc
  rw [dif_pos h]
  simp only [hc]
  obtain ⟨g, hg⟩ := hΓ (lo c)
  obtain ⟨bb, hbb⟩ := hB (lo c)
  choose x hx using hX
  rw [hg, hbb]
  exact wsum_logitT (F := fun j => X b j c) (f := fun j => x b j c) (fun j => hx b j c) g bb i

theorem fc_hi (hX : ∀ b i c, ∃ r : ℝ, X b i c = (r : EReal)) (hΓ : ∀ k, ∃ r : ℝ, Γ k = (r : EReal))
    (hB : ∀ k, ∃ r : ℝ, B k = (r : EReal)) (b : Fin 2) (i : Fin 1024) (c : Fin 64) :
    fc X Γ B b i (hi c) = center (Γ (hi c)) (B (hi c)) (X b i c) := by
  have h : ¬ (hi c).val < 64 := by
    show ¬ (64 + c.val < 64)
    omega
  have hc : ∀ p : (hi c).val - 64 < 64, (⟨(hi c).val - 64, p⟩ : Fin 64) = c := fun _ =>
    Fin.ext (by show 64 + c.val - 64 = c.val; omega)
  unfold fc
  rw [dif_neg h]
  simp only [hc]
  obtain ⟨g, hg⟩ := hΓ (hi c)
  obtain ⟨bb, hbb⟩ := hB (hi c)
  obtain ⟨x, hx⟩ := hX b i c
  rw [hg, hbb, hx]
  exact wsum_logitC g bb x

/-! ## The 128 terms by halves -/

theorem sum_halves (G : Fin 128 → EReal) : ∑ k, G k = ∑ c : Fin 64, G (lo c) + ∑ c : Fin 64, G (hi c) :=
  Fin.sum_univ_add (a := 64) (b := 64) G

/-! ## The bridge -/

theorem GK_eq_GR (X : Fin 2 → Fin 1024 → Fin 64 → EReal) (Γ B : Fin 128 → EReal) (W : Fin 64 → Fin 128 → EReal)
    (hX : ∀ b i c, ∃ r : ℝ, X b i c = (r : EReal)) (hΓ : ∀ k, ∃ r : ℝ, Γ k = (r : EReal)) (hB : ∀ k, ∃ r : ℝ, B k = (r : EReal))
    (hW : ∀ o k, ∃ r : ℝ, W o k = (r : EReal)) (b : Fin 2) (i : Fin 1024) (o : Fin 64) :
    GK X Γ B W b i o = GR X Γ B W b i o := by
  unfold GK GR
  rw [sum_halves (fun k => fc X Γ B b i k * W o k)]
  simp only [fc_lo X Γ B hX hΓ hB, fc_hi X Γ B hX hΓ hB]

end Cert.Fusion

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: if all(|x| < +inf) & all(|γ| < +inf) & all(|β| < +inf) & all(|W| < +inf) is 1 then every
  entry of the four arrays is a real number. The conjunction of four one-bit tests is 1 exactly when each is; each test
  is the all-axes "and" of the entrywise comparison of the absolute value with +inf.
-/
import proofs.«142952_j53334903882146_2_alg».proof.Proof.Gen.Pre_finite_inputs
import proofs.«142952_j53334903882146_2_alg».proof.Proof.LibFinite
import Idealize.ShloMosaic.Lib.Affine

noncomputable section

namespace Cert.Pre_finite_inputs.Finite

open Cert.Pre_finite_inputs Cert.Pre_finite_inputs.Gen Idealize.ShloMosaic Idealize.ShloMosaic.ValueIdx

theorem real_of_pre (x : FVec Ideal S2x1024x64 .f32) (g b : FVec Ideal S1x1x1x128 .f32) (w : FVec Ideal S64x128 .f32)
    (h : fn (F := Ideal) x g b w = fun _ => 1#1) :
    (∀ i, ∃ r : ℝ, x i = (r : EReal)) ∧ (∀ i, ∃ r : ℝ, g i = (r : EReal)) ∧ (∀ i, ∃ r : ℝ, b i = (r : EReal))
      ∧ (∀ i, ∃ r : ℝ, w i = (r : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨Cert.LibFinite.real_of_all x bcast_S_S2x1024x64 reducesTo_S2x1024x64_S_d0_1_2 h_S_ ix0 h1,
    Cert.LibFinite.real_of_all g bcast_S_S1x1x1x128 reducesTo_S1x1x1x128_S_d0_1_2_3 h_S_ ix0 h2,
    Cert.LibFinite.real_of_all b bcast_S_S1x1x1x128 reducesTo_S1x1x1x128_S_d0_1_2_3 h_S_ ix0 h3,
    Cert.LibFinite.real_of_all w bcast_S_S64x128 reducesTo_S64x128_S_d0_1 h_S_ ix0 h4⟩

end Cert.Pre_finite_inputs.Finite

end
-- ==== Proof.lean ====
/-
  The certificate's claims, assembled.

  The three programs run and leave their arguments as launched: the two kernels' frames are the generated ones, the
  reference's is its run with the result dropped. The idealization rewrote nothing, so "preserves" has nothing to say.

  The value claim. After the kernel's run the output array holds, at (b, i, o), the kernel's arrangement GK of the
  argument arrays' entries (the body's arithmetic at an index, block by block); after the reference's run its result
  holds the reference's arrangement GR of the same entries (its forty host operations at an index). Under the
  precondition every entry is a real number, and on real data GK = GR: a shift of a column changes neither its
  variance nor its softmax weights, the weights add to one, the weighted sum of a constant column is the constant,
  and a 128-term product is the sum of its two 64-term halves.
-/
import proofs.«142952_j53334903882146_2_alg».proof.Defs
import proofs.«142952_j53334903882146_2_alg».proof.Proof.Gen.Kernel
import proofs.«142952_j53334903882146_2_alg».proof.Proof.Gen.Kernel.Frame
import proofs.«142952_j53334903882146_2_alg».proof.Proof.Gen.KernelIdeal
import proofs.«142952_j53334903882146_2_alg».proof.Proof.Gen.KernelIdeal.Frame
import proofs.«142952_j53334903882146_2_alg».proof.Proof.Gen.KernelIdeal.Value
import proofs.«142952_j53334903882146_2_alg».proof.Proof.Gen.ReferenceIdeal
import proofs.«142952_j53334903882146_2_alg».proof.Proof.Gen.Pre_finite_inputs
import proofs.«142952_j53334903882146_2_alg».proof.Proof.KerArray
import proofs.«142952_j53334903882146_2_alg».proof.Proof.RefRun
import proofs.«142952_j53334903882146_2_alg».proof.Proof.RefRead
import proofs.«142952_j53334903882146_2_alg».proof.Proof.Bridge
import proofs.«142952_j53334903882146_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end, the reference's result equal to the kernel's output array entry by entry: GR of real entries is GK. -/
theorem algebraic : Cert.algebraic_KernelIdeal_ReferenceIdeal := by
  intro m ρ m' ρ' hpre hagree
  refine ⟨fun c => (Cert.KernelIdeal.Gen.dats m 0 c).arrAt 7 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.RefValue.run (F := Ideal) m' ρ')
  obtain ⟨hx, hg, hb, hw⟩ := Cert.Pre_finite_inputs.Finite.real_of_pre _ _ _ _ (hpre c)
  rw [(hagree c).1, (hagree c).2.1, (hagree c).2.2.1, (hagree c).2.2.2]
  funext idx
  obtain ⟨b, i, o, rfl⟩ : ∃ (b : Fin 2) (i : Fin 1024) (o : Fin 64), idx = ix3 b i o := ⟨idx 0, idx 1, idx 2, eq_ix3 idx⟩
  refine (Cert.ReferenceIdeal.RefValue.out_apply _ _ _ _ b i o).trans ?_
  refine Eq.trans ?_ (Cert.KernelIdeal.ArrayValue.final_apply m c b i o).symm
  exact (Cert.Fusion.GK_eq_GR _ _ _ _ (fun b i k => hx (ix3 b i k)) (fun k => hg (ix4 0 0 0 k)) (fun k => hb (ix4 0 0 0 k))
    (fun o k => hw (ix2 o k)) b i o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
